-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x2048x64 : Shape := ⟨4, ![2, 16, 2048, 64]⟩
abbrev S64x64 : Shape := ⟨2, ![64, 64]⟩
abbrev S64 : Shape := ⟨1, ![64]⟩
abbrev S_ : Shape := ⟨0, ![]⟩

class Facts : Prop where
  bcast_S_S2x16x2048x64 : S_.BroadcastsInDim S2x16x2048x64 (![] : Fin 0 → Fin S2x16x2048x64.rank)
  reducesTo_S2x16x2048x64_S_d0_1_2_3 : S2x16x2048x64.ReducesTo [0, 1, 2, 3] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg7 : FVec F S64x64 .f32) (main_arg8 : FVec F S64 .f32) (main_v33 : IVec S_ 1) : IVec S_ 1 :=
  let main_v34 : FVec F S64x64 .f32 := Host.absf main_arg7
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg4 : FVec F S64 .f32) (main_arg5 : FVec F S64x64 .f32) (main_arg6 : FVec F S64 .f32) (main_arg7 : FVec F S64x64 .f32) (main_arg8 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_v33

def fn {F : FTy → Type} [FloatOps F] (main_arg0 : FVec F S2x16x2048x64 .f32) (main_arg1 : FVec F S64x64 .f32) (main_arg2 : FVec F S64 .f32) (main_arg3 : FVec F S64x64 .f32) (main_arg4 : FVec F S64 .f32) (main_arg5 : FVec F S64x64 .f32) (main_arg6 : FVec F S64 .f32) (main_arg7 : FVec F S64x64 .f32) (main_arg8 : FVec F S64 .f32) : IVec S_ 1 :=
  let main_v0 : FVec F S2x16x2048x64 .f32 := Host.absf main_arg0
  let main_cst : FVec F S_ .f32 := constant S_ .f32 0x7F800000#32
  let main_v1 : FVec F S2x16x2048x64 .f32 := broadcastInDim S2x16x2048x64 ![] bcast_S_S2x16x2048x64 main_cst
  let main_v2 : IVec S2x16x2048x64 1 := cmpf .olt main_v0 main_v1
  let main_c : IVec S_ 1 := constantI S_ 1 1#1
  let main_v3 : IVec S_ 1 := (fun x v => Host.reduce IntOp.andi x v reducesTo_S2x16x2048x64_S_d0_1_2_3 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_arg6 main_arg7 main_arg8 main_v13 main_v16
-- ==== Kernel.lean ====
abbrev S2x16x2048x64 : Shape := ⟨4, ![2, 16, 2048, 64]⟩
abbrev S64x64 : Shape := ⟨2, ![64, 64]⟩
abbrev S64 : Shape := ⟨1, ![64]⟩
abbrev S32x2048x64 : Shape := ⟨3, ![32, 2048, 64]⟩
abbrev S1x64 : Shape := ⟨2, ![1, 64]⟩
abbrev S2x32x2048x2048 : Shape := ⟨4, ![2, 32, 2048, 2048]⟩
abbrev S1x2048x64 : Shape := ⟨3, ![1, 2048, 64]⟩
abbrev S2x1x512x2048 : Shape := ⟨4, ![2, 1, 512, 2048]⟩
abbrev S64x2048 : Shape := ⟨2, ![64, 2048]⟩
abbrev S2048x64 : Shape := ⟨2, ![2048, 64]⟩
abbrev S1x512x64 : Shape := ⟨3, ![1, 512, 64]⟩
abbrev S512x64 : Shape := ⟨2, ![512, 64]⟩
abbrev S512x2048 : Shape := ⟨2, ![512, 2048]⟩
abbrev S512 : Shape := ⟨1, ![512]⟩
abbrev S512x1 : Shape := ⟨2, ![512, 1]⟩
abbrev S1x1x512x2048 : Shape := ⟨4, ![1, 1, 512, 2048]⟩
abbrev S2x2x16x2048x2048 : Shape := ⟨5, ![2, 2, 16, 2048, 2048]⟩

abbrev nBuf : Space → Nat
  | .hbm => 20
  | .vmem => 15
  | .smem => 0
  | _ => 0

abbrev bufTy : (tb : Table) → Fin (tcTables nBuf tb) → BufTy
  | .hbm, ⟨0, _⟩ => ⟨S2x16x2048x64, .f32⟩
  | .hbm, ⟨1, _⟩ => ⟨S64x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S32x2048x64, .f32⟩
  | .hbm, ⟨10, _⟩ => ⟨S64x64, .f32⟩
  | .hbm, ⟨11, _⟩ => ⟨S64x64, .f32⟩
  | .hbm, ⟨12, _⟩ => ⟨S64x64, .f32⟩
  | .hbm, ⟨13, _⟩ => ⟨S64x64, .f32⟩
  | .hbm, ⟨14, _⟩ => ⟨S1x64, .f32⟩
  | .hbm, ⟨15, _⟩ => ⟨S1x64, .f32⟩
  | .hbm, ⟨16, _⟩ => ⟨S1x64, .f32⟩
  | .hbm, ⟨17, _⟩ => ⟨S1x64, .f32⟩
  | .hbm, ⟨18, _⟩ => ⟨S2x32x2048x2048, .f32⟩
  | .hbm, ⟨19, _⟩ => ⟨S2x2x16x2048x2048, .f32⟩
  | .local _ .vmem, ⟨0, _⟩ => ⟨S1x2048x64, .f32⟩
  | .local _ .vmem, ⟨1, _⟩ => ⟨S1x2048x64, .f32⟩
  | .local _ .vmem, ⟨2, _⟩ => ⟨S64x64, .f32⟩
  | .local _ .vmem, ⟨3, _⟩ => ⟨S1x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S64x64, .f32⟩
  | .local _ .vmem, ⟨9, _⟩ => ⟨S1x64, .f32⟩
  | .local _ .vmem, ⟨10, _⟩ => ⟨S2x1x512x2048, .f32⟩
  | .local _ .vmem, ⟨11, _⟩ => ⟨S2x1x512x2048, .f32⟩
  | .local _ .vmem, ⟨12, _⟩ => ⟨S64x2048, .f32⟩
  | .local _ .vmem, ⟨13, _⟩ => ⟨S64x2048, .f32⟩
  | .local _ .vmem, ⟨14, _⟩ => ⟨S64x2048, .f32⟩
  | _, _ => ⟨S2x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨2, ![32, 4], ![false, false]⟩

def k0_mult1 (i : grid0.Coords) : BitVec 32 :=
  let arg1 : BitVec 32 := BitVec.ofNat 32 (i 1).val
  let c512_i32 : BitVec 32 := 512#32
  let v3 : BitVec 32 := Scalar.muli arg1 c512_i32
  v3
def k0_off1 (i : grid0.Coords) : Fin 3 → Nat :=
  let c0 : Index := 0#32
  let arg1 : BitVec 32 := BitVec.ofNat 32 (i 1).val
  let c512_i32 : BitVec 32 := 512#32
  let v3 : BitVec 32 := Scalar.muli arg1 c512_i32
  let v4 : BitVec 32 := v3
  let v5 : Index := Scalar.indexCast v4
  let c0_1 : Index := 0#32
  ![0, v5.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

abbrev stage0_0 : Fin 2 → Memref sig .tc .vmem S1x2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S2x1x512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

class Facts₀ : Prop where
  shapeCasts_S2x16x2048x64_S32x2048x64 : S2x16x2048x64.ShapeCasts S32x2048x64
  transposes_S64x64_S64x64_1_0 : S64x64.Transposes [1, 0] S64x64
  shapeCasts_S64_S1x64 : S64.ShapeCasts S1x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2048x64 : S1x64.Broadcasts S2048x64
  transposes_S2048x64_p1_0_S64x2048 : S2048x64.Transposes [1, 0] S64x2048
  inb_S64x2048_S64x2048_0_0 : ∀ a, (![0, 0] : Fin 2 → Nat) a + S64x2048.size a ≤ S64x2048.size a
  h_S64x2048 : 0 < S64x2048.numel
  shapeCasts_S64x2048_S64x2048 : S64x2048.ShapeCasts S64x2048
  h_S1x512x64 : 0 < S1x512x64.numel
  shapeCasts_S1x512x64_S512x64 : S1x512x64.ShapeCasts S512x64
  broadcasts_S1x64_S512x64 : S1x64.Broadcasts S512x64
  reduces_S512x2048_S512 : S512x2048.Reduces [1] S512
  shapeCasts_S512_S512x1 : S512.ShapeCasts S512x1
  broadcasts_S512x1_S512x2048 : S512x1.Broadcasts S512x2048
  inb_S2x1x512x2048_S1x1x512x2048_0_0_0_0 : ∀ a, (![0, 0, 0, 0] : Fin 4 → Nat) a + S1x1x512x2048.size a ≤ S2x1x512x2048.size a
  h_S1x1x512x2048 : 0 < S1x1x512x2048.numel
  shapeCasts_S1x1x512x2048_S512x2048 : S1x1x512x2048.ShapeCasts S512x2048
  shapeCasts_S512x2048_S1x1x512x2048 : S512x2048.ShapeCasts S1x1x512x2048
  inb_S2x1x512x2048_S1x1x512x2048_1_0_0_0 : ∀ a, (![1, 0, 0, 0] : Fin 4 → Nat) a + S1x1x512x2048.size a ≤ S2x1x512x2048.size a
  shapeCasts_S2x32x2048x2048_S2x2x16x2048x2048 : S2x32x2048x2048.ShapeCasts S2x2x16x2048x2048
  dot_S2048x64_S64x64_S2048x64_1_0_0_1_n_n_wf : DotDims.WF S2048x64 S64x64 S2048x64 [1] [0] [0] [1] [] []
  dot_S512x64_S64x64_S512x64_1_0_0_1_n_n_wf : DotDims.WF S512x64 S64x64 S512x64 [1] [0] [0] [1] [] []
  dot_S512x64_S64x2048_S512x2048_1_0_0_1_n_n_wf : DotDims.WF S512x64 S64x2048 S512x2048 [1] [0] [0] [1] [] []
  hrank0 : 0 < grid0.rank
  k0_mult1_dvd : ∀ i : grid0.Coords, 512 ∣ (k0_mult1 i).toNat
  k0_off1_inb : ∀ i : grid0.Coords, ∀ a, (k0_off1 i) a + S1x512x64.size a ≤ S1x2048x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x64.size a ≤ S32x2048x64.size a
  hwx0_0 : ∀ i : grid0.Coords, EltTy.bits .f32 = 32 ∨ (Rect.block (s := S32x2048x64) S1x2048x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x64.size a ≤ S64x64.size a
  hwx0_7 : ∀ i : grid0.Coords, EltTy.bits .f32 = 32 ∨ (Rect.block (s := S64x64) S64x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2x1x512x2048.size a ≤ S2x32x2048x2048.size a
  hwx0_9 : ∀ i : grid0.Coords, EltTy.bits .f32 = 32 ∨ (Rect.block (s := S2x32x2048x2048) S2x1x512x2048.size (cc0_transform_9 i) (hinb0_9 i)).WholeWords (EltTy.packing .f32)

variable [Facts₀]

def dot_S2048x64_S64x64_S2048x64_1_0_0_1_n_n : DotDims S2048x64 S64x64 S2048x64 where
  lhsContracting := [1]
  rhsContracting := [0]
  lhsNonContracting := [0]
  rhsNonContracting := [1]
  lhsBatch := []
  rhsBatch := []
  wf := dot_S2048x64_S64x64_S2048x64_1_0_0_1_n_n_wf
def dot_S512x64_S64x64_S512x64_1_0_0_1_n_n : DotDims S512x64 S64x64 S512x64 where
  lhsContracting := [1]
  rhsContracting := [0]
  lhsNonContracting := [0]
  rhsNonContracting := [1]
  lhsBatch := []
  rhsBatch := []
  wf := dot_S512x64_S64x64_S512x64_1_0_0_1_n_n_wf
def dot_S512x64_S64x2048_S512x2048_1_0_0_1_n_n : DotDims S512x64 S64x2048 S512x2048 where
  lhsContracting := [1]
  rhsContracting := [0]
  lhsNonContracting := [0]
  rhsNonContracting := [1]
  lhsBatch := []
  rhsBatch := []
  wf := dot_S512x64_S64x2048_S512x2048_1_0_0_1_n_n_wf

abbrev win0_0 : Pipeline.Window sig grid0 :=
  Pipeline.Window.ofSpec (Memref.whole main_v0) S1x2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S64x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v8) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v9) S2x1x512x2048.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S2x16x2048x64 : Shape := ⟨4, ![2, 16, 2048, 64]⟩
abbrev S64x64 : Shape := ⟨2, ![64, 64]⟩
abbrev S64 : Shape := ⟨1, ![64]⟩
abbrev S1x1x1x64 : Shape := ⟨4, ![1, 1, 1, 64]⟩
abbrev S2x16x2048x128 : Shape := ⟨4, ![2, 16, 2048, 128]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩
abbrev S1x2x16x2048x2048 : Shape := ⟨5, ![1, 2, 16, 2048, 2048]⟩
abbrev S2x2x16x2048x2048 : Shape := ⟨5, ![2, 2, 16, 2048, 2048]⟩

abbrev nBuf : Space → Nat
  | .hbm => 61
  | .vmem => 0
  | .smem => 0
  | _ => 0

abbrev bufTy : (tb : Table) → Fin (tcTables nBuf tb) → BufTy
  | .hbm, ⟨0, _⟩ => ⟨S2x16x2048x64, .f32⟩
  | .hbm, ⟨1, _⟩ => ⟨S64x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S2x16x2048x64, .f32⟩
  | .hbm, ⟨10, _⟩ => ⟨S1x1x1x64, .f32⟩
  | .hbm, ⟨11, _⟩ => ⟨S2x16x2048x64, .f32⟩
  | .hbm, ⟨12, _⟩ => ⟨S2x16x2048x64, .f32⟩
  | .hbm, ⟨13, _⟩ => ⟨S2x16x2048x64, .f32⟩
  | .hbm, ⟨14, _⟩ => ⟨S1x1x1x64, .f32⟩
  | .hbm, ⟨15, _⟩ => ⟨S2x16x2048x64, .f32⟩
  | .hbm, ⟨16, _⟩ => ⟨S2x16x2048x64, .f32⟩
  | .hbm, ⟨17, _⟩ => ⟨S2x16x2048x64, .f32⟩
  | .hbm, ⟨18, _⟩ => ⟨S1x1x1x64, .f32⟩
  | .hbm, ⟨19, _⟩ => ⟨S2x16x2048x64, .f32⟩
  | .hbm, ⟨20, _⟩ => ⟨S2x16x2048x64, .f32⟩
  | .hbm, ⟨21, _⟩ => ⟨S2x16x2048x64, .f32⟩
  | .hbm, ⟨22, _⟩ => ⟨S2x16x2048x64, .f32⟩
  | .hbm, ⟨23, _⟩ => ⟨S2x16x2048x64, .f32⟩
  | .hbm, ⟨24, _⟩ => ⟨S2x16x2048x128, .f32⟩
  | .hbm, ⟨25, _⟩ => ⟨S2x16x2048x64, .f32⟩
  | .hbm, ⟨26, _⟩ => ⟨S1x1x1x64, .f32⟩
  | .hbm, ⟨27, _⟩ => ⟨S2x16x2048x64, .f32⟩
  | .hbm, ⟨28, _⟩ => ⟨S2x16x2048x64, .f32⟩
  | .hbm, ⟨29, _⟩ => ⟨S2x16x2048x64, .f32⟩
  | .hbm, ⟨30, _⟩ => ⟨S2x16x2048x64, .f32⟩
  | .hbm, ⟨31, _⟩ => ⟨S2x16x2048x64, .f32⟩
  | .hbm, ⟨32, _⟩ => ⟨S2x16x2048x128, .f32⟩
  | .hbm, ⟨33, _⟩ => ⟨S2x16x2048x2048, .f32⟩
  | .hbm, ⟨34, _⟩ => ⟨S_, .f32⟩
  | .hbm, ⟨35, _⟩ => ⟨S2x16x2048, .f32⟩
  | .hbm, ⟨36, _⟩ => ⟨S2x16x2048x1, .f32⟩
  | .hbm, ⟨37, _⟩ => ⟨S2x16x2048x2048, .f32⟩
  | .hbm, ⟨38, _⟩ => ⟨S2x16x2048x2048, .f32⟩
  | .hbm, ⟨39, _⟩ => ⟨S2x16x2048x2048, .f32⟩
  | .hbm, ⟨40, _⟩ => ⟨S_, .f32⟩
  | .hbm, ⟨41, _⟩ => ⟨S_, .f32⟩
  | .hbm, ⟨42, _⟩ => ⟨S2x16x2048x2048, .f32⟩
  | .hbm, ⟨43, _⟩ => ⟨S2x16x2048x2048, .f32⟩
  | .hbm, ⟨44, _⟩ => ⟨S_, .f32⟩
  | .hbm, ⟨45, _⟩ => ⟨S2x16x2048, .f32⟩
  | .hbm, ⟨46, _⟩ => ⟨S_, .f32⟩
  | .hbm, ⟨47, _⟩ => ⟨S2x16x2048, .f32⟩
  | .hbm, ⟨48, _⟩ => ⟨S2x16x2048, .f32⟩
  | .hbm, ⟨49, _⟩ => ⟨S2x16x2048x1, .f32⟩
  | .hbm, ⟨50, _⟩ => ⟨S2x16x2048x2048, .f32⟩
  | .hbm, ⟨51, _⟩ => ⟨S2x16x2048x2048, .f32⟩
  | .hbm, ⟨52, _⟩ => ⟨S2x16x2048x2048, .f32⟩
  | .hbm, ⟨53, _⟩ => ⟨S_, .f32⟩
  | .hbm, ⟨54, _⟩ => ⟨S2x16x2048, .f32⟩
  | .hbm, ⟨55, _⟩ => ⟨S2x16x2048x1, .f32⟩
  | .hbm, ⟨56, _⟩ => ⟨S2x16x2048x2048, .f32⟩
  | .hbm, ⟨57, _⟩ => ⟨S2x16x2048x2048, .f32⟩
  | .hbm, ⟨58, _⟩ => ⟨S1x2x16x2048x2048, .f32⟩
  | .hbm, ⟨59, _⟩ => ⟨S1x2x16x2048x2048, .f32⟩
  | .hbm, ⟨60, _⟩ => ⟨S2x2x16x2048x2048, .f32⟩
  | _, _ => ⟨S2x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_0 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_1 : Ref sig .tc := ⟨.hbm, 44, rfl⟩
abbrev main_v33 : Ref sig .tc := ⟨.hbm, 45, rfl⟩
abbrev main_cst_2 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_3 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩

abbrev nD : Nat := 1
abbrev τ : Topo := Topo.v7x

variable {F : FTy → Type} [FloatOps F]

class Facts₀ : Prop where
  bcast_S64_S1x1x1x64_3 : S64.BroadcastsInDim S1x1x1x64 (![3] : Fin 1 → Fin S1x1x1x64.rank)
  bcast_S1x1x1x64_S2x16x2048x64_0_1_2_3 : S1x1x1x64.BroadcastsInDim S2x16x2048x64 (![0, 1, 2, 3] : Fin 4 → Fin S2x16x2048x64.rank)
  concatenates_S2x16x2048x64_S2x16x2048x64_S2x16x2048x128_d3 : Shape.Concatenates [S2x16x2048x64, S2x16x2048x64] S2x16x2048x128 3
  reducesTo_S2x16x2048x2048_S2x16x2048_d3 : S2x16x2048x2048.ReducesTo [3] S2x16x2048
  h_S_ : 0 < S_.numel
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  bcast_S_S2x16x2048x2048 : S_.BroadcastsInDim S2x16x2048x2048 (![] : Fin 0 → Fin S2x16x2048x2048.rank)
  bcast_S_S2x16x2048 : S_.BroadcastsInDim S2x16x2048 (![] : Fin 0 → Fin S2x16x2048.rank)
  bcast_S2x16x2048x2048_S1x2x16x2048x2048_1_2_3_4 : S2x16x2048x2048.BroadcastsInDim S1x2x16x2048x2048 (![1, 2, 3, 4] : Fin 4 → Fin S1x2x16x2048x2048.rank)
  concatenates_S1x2x16x2048x2048_S1x2x16x2048x2048_S2x2x16x2048x2048_d0 : Shape.Concatenates [S1x2x16x2048x2048, S1x2x16x2048x2048] S2x2x16x2048x2048 0
  dot_S2x16x2048x64_S64x64_S2x16x2048x64_3_1_012_0_n_n_wf : DotDims.WF S2x16x2048x64 S64x64 S2x16x2048x64 [3] [1] [0, 1, 2] [0] [] []
  dot_S2x16x2048x128_S2x16x2048x128_S2x16x2048x2048_3_3_2_2_01_01_wf : DotDims.WF S2x16x2048x128 S2x16x2048x128 S2x16x2048x2048 [3] [3] [2] [2] [0, 1] [0, 1]
  dot_S2x16x2048x64_S2x16x2048x64_S2x16x2048x2048_3_3_2_2_01_01_wf : DotDims.WF S2x16x2048x64 S2x16x2048x64 S2x16x2048x2048 [3] [3] [2] [2] [0, 1] [0, 1]

variable [Facts₀]

def dot_S2x16x2048x64_S64x64_S2x16x2048x64_3_1_012_0_n_n : DotDims S2x16x2048x64 S64x64 S2x16x2048x64 where
  lhsContracting := [3]
  rhsContracting := [1]
  lhsNonContracting := [0, 1, 2]
  rhsNonContracting := [0]
  lhsBatch := []
  rhsBatch := []
  wf := dot_S2x16x2048x64_S64x64_S2x16x2048x64_3_1_012_0_n_n_wf
def dot_S2x16x2048x128_S2x16x2048x128_S2x16x2048x2048_3_3_2_2_01_01 : DotDims S2x16x2048x128 S2x16x2048x128 S2x16x2048x2048 where
  lhsContracting := [3]
  rhsContracting := [3]
  lhsNonContracting := [2]
  rhsNonContracting := [2]
  lhsBatch := [0, 1]
  rhsBatch := [0, 1]
  wf := dot_S2x16x2048x128_S2x16x2048x128_S2x16x2048x2048_3_3_2_2_01_01_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf

class Facts : Prop extends Facts₀ where

variable [Facts]
-- ==== Proof.Pieces.lean ====
/-
  What one grid point leaves behind, as values.

  At every point the body writes the output block in two stores: rows [1,0,·,·] the softmax of the scaled scores of the query tile
  against the key rows held (transposed) in the first scratch array, rows [0,0,·,·] the normalised feature product of the query tile
  against the two feature arrays held in the second and third scratch arrays.  The query tile is the 512 rows of the point's x block
  that start at row 512·j, j the point's second coordinate.  At a point with j = 0 the three scratch arrays are first overwritten with
  the transposed key rows, exp of the key pre-activations and exp of their negation, computed from the whole x block, and the output is
  computed from those; at the other points the scratch arrays are left as the point before left them.
-/
import proofs.«163745_j81716047774352_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The query tile of a point: 512 consecutive rows of the x block, starting at 512 times the point's second coordinate. -/
def qtile (i : grid0.Coords) (x0 : Vec F S1x2048x64 .f32) : Vec F S1x512x64 .f32 :=
  View.ld x0 (Rect.unit (s := S1x2048x64) (k0_off1 i) S1x512x64.size (k0_off1_inb i))

/-- The output block a point writes, from the x block, the query-side weights and the three scratch arrays it reads. -/
def outTile (i : grid0.Coords) (x0 : Vec F S1x2048x64 .f32) (x1 : Vec F S64x64 .f32) (x2 : Vec F S1x64 .f32)
    (x5 : Vec F S64x64 .f32) (x6 : Vec F S1x64 .f32) (s0 s1 s2 : Vec F S64x2048 .f32) : Vec F S2x1x512x2048 .f32 :=
  View.canon
    [⟨Rect.unit (s := S2x1x512x2048) ![1, 0, 0, 0] S1x1x512x2048.size inb_S2x1x512x2048_S1x1x512x2048_1_0_0_0,
        k0_pay2 (k0_pay8 (qtile i x0) x1 x2) s0⟩,
      ⟨Rect.unit (s := S2x1x512x2048) ![0, 0, 0, 0] S1x1x512x2048.size inb_S2x1x512x2048_S1x1x512x2048_0_0_0_0,
        k0_pay1 (k0_pay9 (qtile i x0) x1 x2 x5 x6 s1 s2)⟩]

/-- At a first point of a row of the grid the first scratch array ends holding the transposed key rows. -/
theorem sout_A_0 (c : Dev nD) (i : grid0.Coords) (arg2 : Memref sig .tc .vmem S1x2048x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S2x1x512x2048 .f32) (harg11 : arg11.IsWhole) (arg12 : Memref sig .tc .vmem S64x2048 .f32) (harg12 : arg12.IsWhole) (arg13 : Memref sig .tc .vmem S64x2048 .f32) (harg13 : arg13.IsWhole) (arg14 : Memref sig .tc .vmem S64x2048 .f32) (harg14 : arg14.IsWhole) (hc0 : cond0_0 i) (x0 : Vec F S1x2048x64 .f32) (x1 : Vec F S64x64 .f32) (x2 : Vec F S1x64 .f32) (x3 : Vec F S64x64 .f32) (x4 : Vec F S1x64 .f32) (x5 : Vec F S64x64 .f32) (x6 : Vec F S1x64 .f32) (x7 : Vec F S64x64 .f32) (x8 : Vec F S1x64 .f32) :
    sout0_A_0 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 = k0_pay5 x0 x3 x4 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8)]
  unfold kernelRun0_A
  dsimp only
  sl_unfold_words
  rw [View.canon_unit_zero hz2]
  simp only [View.readAt_eq_ld, harg2.read_unread, harg5.read_unread, harg6.read_unread,
    View.ld_unit_zero (S := S1x2048x64) hz3, View.ld_unit_zero (S := S64x64) hz2, View.ld_unit_zero (S := S1x64) hz2]

/-- The second: exp of the key pre-activations, transposed. -/
theorem sout_A_1 (c : Dev nD) (i : grid0.Coords) (arg2 : Memref sig .tc .vmem S1x2048x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S2x1x512x2048 .f32) (harg11 : arg11.IsWhole) (arg12 : Memref sig .tc .vmem S64x2048 .f32) (harg12 : arg12.IsWhole) (arg13 : Memref sig .tc .vmem S64x2048 .f32) (harg13 : arg13.IsWhole) (arg14 : Memref sig .tc .vmem S64x2048 .f32) (harg14 : arg14.IsWhole) (hc0 : cond0_0 i) (x0 : Vec F S1x2048x64 .f32) (x1 : Vec F S64x64 .f32) (x2 : Vec F S1x64 .f32) (x3 : Vec F S64x64 .f32) (x4 : Vec F S1x64 .f32) (x5 : Vec F S64x64 .f32) (x6 : Vec F S1x64 .f32) (x7 : Vec F S64x64 .f32) (x8 : Vec F S1x64 .f32) :
    sout0_A_1 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 = k0_pay6 x0 x3 x4 x7 x8 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8)]
  unfold kernelRun0_A
  dsimp only
  sl_unfold_words
  rw [View.canon_unit_zero hz2]
  simp only [View.readAt_eq_ld, harg2.read_unread, harg5.read_unread, harg6.read_unread, harg9.read_unread, harg10.read_unread,
    View.ld_unit_zero (S := S1x2048x64) hz3, View.ld_unit_zero (S := S64x64) hz2, View.ld_unit_zero (S := S1x64) hz2]

/-- The third: exp of the negated key pre-activations, transposed. -/
theorem sout_A_2 (c : Dev nD) (i : grid0.Coords) (arg2 : Memref sig .tc .vmem S1x2048x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S2x1x512x2048 .f32) (harg11 : arg11.IsWhole) (arg12 : Memref sig .tc .vmem S64x2048 .f32) (harg12 : arg12.IsWhole) (arg13 : Memref sig .tc .vmem S64x2048 .f32) (harg13 : arg13.IsWhole) (arg14 : Memref sig .tc .vmem S64x2048 .f32) (harg14 : arg14.IsWhole) (hc0 : cond0_0 i) (x0 : Vec F S1x2048x64 .f32) (x1 : Vec F S64x64 .f32) (x2 : Vec F S1x64 .f32) (x3 : Vec F S64x64 .f32) (x4 : Vec F S1x64 .f32) (x5 : Vec F S64x64 .f32) (x6 : Vec F S1x64 .f32) (x7 : Vec F S64x64 .f32) (x8 : Vec F S1x64 .f32) :
    sout0_A_2 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 = k0_pay7 x0 x3 x4 x7 x8 := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8)]
  unfold kernelRun0_A
  dsimp only
  sl_unfold_words
  rw [View.canon_unit_zero hz2]
  simp only [View.readAt_eq_ld, harg2.read_unread, harg5.read_unread, harg6.read_unread, harg9.read_unread, harg10.read_unread,
    View.ld_unit_zero (S := S1x2048x64) hz3, View.ld_unit_zero (S := S64x64) hz2, View.ld_unit_zero (S := S1x64) hz2]

/-- At such a point the output block is computed from the scratch contents just stored. -/
theorem out_A (c : Dev nD) (i : grid0.Coords) (arg2 : Memref sig .tc .vmem S1x2048x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S2x1x512x2048 .f32) (harg11 : arg11.IsWhole) (arg12 : Memref sig .tc .vmem S64x2048 .f32) (harg12 : arg12.IsWhole) (arg13 : Memref sig .tc .vmem S64x2048 .f32) (harg13 : arg13.IsWhole) (arg14 : Memref sig .tc .vmem S64x2048 .f32) (harg14 : arg14.IsWhole) (hc0 : cond0_0 i) (x0 : Vec F S1x2048x64 .f32) (x1 : Vec F S64x64 .f32) (x2 : Vec F S1x64 .f32) (x3 : Vec F S64x64 .f32) (x4 : Vec F S1x64 .f32) (x5 : Vec F S64x64 .f32) (x6 : Vec F S1x64 .f32) (x7 : Vec F S64x64 .f32) (x8 : Vec F S1x64 .f32) :
    out0_A_9 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8
      = outTile i x0 x1 x2 x5 x6 (k0_pay5 x0 x3 x4) (k0_pay6 x0 x3 x4 x7 x8) (k0_pay7 x0 x3 x4 x7 x8) := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8)]
  unfold kernelRun0_A
  dsimp only
  sl_unfold_words
  simp only [View.readCov_unit_zero (S := S64x2048) _ hz2, View.readAt_eq_ld, harg2.read_unread, harg3.read_unread, harg4.read_unread,
    harg5.read_unread, harg6.read_unread, harg7.read_unread, harg8.read_unread, harg9.read_unread, harg10.read_unread,
    View.ld_unit_zero (S := S1x2048x64) hz3, View.ld_unit_zero (S := S64x64) hz2, View.ld_unit_zero (S := S1x64) hz2]
  rfl

/-- At the other points it is computed from the scratch contents the point before left. -/
theorem out_B (c : Dev nD) (i : grid0.Coords) (arg2 : Memref sig .tc .vmem S1x2048x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S2x1x512x2048 .f32) (harg11 : arg11.IsWhole) (arg12 : Memref sig .tc .vmem S64x2048 .f32) (harg12 : arg12.IsWhole) (arg13 : Memref sig .tc .vmem S64x2048 .f32) (harg13 : arg13.IsWhole) (arg14 : Memref sig .tc .vmem S64x2048 .f32) (harg14 : arg14.IsWhole) (hc0 : ¬cond0_0 i) (x0 : Vec F S1x2048x64 .f32) (x1 : Vec F S64x64 .f32) (x2 : Vec F S1x64 .f32) (x3 : Vec F S64x64 .f32) (x4 : Vec F S1x64 .f32) (x5 : Vec F S64x64 .f32) (x6 : Vec F S1x64 .f32) (x7 : Vec F S64x64 .f32) (x8 : Vec F S1x64 .f32) (xs0 xs1 xs2 : Vec F S64x2048 .f32) :
    out0_B_9 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xs0 xs1 xs2 = outTile i x0 x1 x2 x5 x6 xs0 xs1 xs2 := by
  unfold out0_B_9
  rw [View.read_writes_eq_canon _ _ _ (cover0_B_9 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xs0 xs1 xs2)]
  unfold kernelRun0_B
  dsimp only
  sl_unfold_words
  simp only [View.readAt_eq_ld, harg2.read_unread, harg3.read_unread, harg4.read_unread,
    harg7.read_unread, harg8.read_unread, harg12.read_unread, harg13.read_unread, harg14.read_unread,
    View.ld_unit_zero (S := S64x2048) hz2, View.ld_unit_zero (S := S64x64) hz2, View.ld_unit_zero (S := S1x64) hz2]
  rfl

end Cert.KernelIdeal.Pieces

end
-- ==== Proof.Arrays.lean ====
/-
  The arrays the region works on, read at an index, and each window's block at a grid point.

  Before the region the host reshapes x from [2,16,2048,64] to [32,2048,64] (batch β and head h merge into 16·β + h), transposes each
  of the four weight matrices, and turns each bias into a one-row matrix.  The grid has 32 × 4 points, point t = 4·i + j; the x
  window's block at t is the whole [2048,64] slab of merged index i = t / 4, every weight and bias window's block is its whole array,
  and the output window's block at t is the [2,1,512,2048] box at (0, t / 4, t % 4, 0) in units of blocks.
-/
import proofs.«163745_j81716047774352_2_alg».proof.Proof.Gen.KernelIdeal.Frame
import Idealize.ShloMosaic.Lib.Pipeline.Value
import Idealize.ShloMosaic.Lib.StableHlo.Run
import Idealize.ShloMosaic.Lib.ValueIdx
import Idealize.ShloMosaic.Lib.ValueLayout

noncomputable section

open Idealize.ShloMosaic Idealize.ShloMosaic.TcCoe Idealize.SL.Sem Idealize.ShloMosaic.ValueIdx
open Idealize.ShloMosaic.Pipeline (Dat)

namespace Cert.KernelIdeal.Arrays

open Cert.KernelIdeal Cert.KernelIdeal.Gen

variable {F : FTy → Type} [FloatOps F]
variable (m : (ℓ : Loc nD τ sig) → Buf (Elt F) ℓ)

/-- The merged (batch, head) index 16·β + h. -/
def bh (β : Fin 2) (h : Fin 16) : Fin 32 := ⟨16 * β.val + h.val, by have := β.isLt; have := h.isLt; omega⟩

/-! ## The operand arrays are layout changes of the arguments -/

theorem V_v0 (c : Dev nD) : (V m c main_v0 : S32x2048x64.Idx → Elt F .f32)
    = shapeCast S32x2048x64 (m ((c : Thread nD τ).loc main_arg0)) shapeCasts_S2x16x2048x64_S32x2048x64 := by
  show StableHlo.after hostOps0 (fun b => m (c, b)) (Proc.devRef .tc main_v0) = _
  after_results; rfl

theorem V_v1 (c : Dev nD) : (V m c main_v1 : S64x64.Idx → Elt F .f32)
    = transpose S64x64 [1, 0] (m ((c : Thread nD τ).loc main_arg1)) transposes_S64x64_S64x64_1_0 := by
  show StableHlo.after hostOps0 (fun b => m (c, b)) (Proc.devRef .tc main_v1) = _
  after_results

theorem V_v2 (c : Dev nD) : (V m c main_v2 : S64x64.Idx → Elt F .f32)
    = transpose S64x64 [1, 0] (m ((c : Thread nD τ).loc main_arg3)) transposes_S64x64_S64x64_1_0 := by
  show StableHlo.after hostOps0 (fun b => m (c, b)) (Proc.devRef .tc main_v2) = _
  after_results

theorem V_v3 (c : Dev nD) : (V m c main_v3 : S64x64.Idx → Elt F .f32)
    = transpose S64x64 [1, 0] (m ((c : Thread nD τ).loc main_arg5)) transposes_S64x64_S64x64_1_0 := by
  show StableHlo.after hostOps0 (fun b => m (c, b)) (Proc.devRef .tc main_v3) = _
  after_results

theorem V_v4 (c : Dev nD) : (V m c main_v4 : S64x64.Idx → Elt F .f32)
    = transpose S64x64 [1, 0] (m ((c : Thread nD τ).loc main_arg7)) transposes_S64x64_S64x64_1_0 := by
  show StableHlo.after hostOps0 (fun b => m (c, b)) (Proc.devRef .tc main_v4) = _
  after_results

theorem V_v5 (c : Dev nD) : (V m c main_v5 : S1x64.Idx → Elt F .f32)
    = shapeCast S1x64 (m ((c : Thread nD τ).loc main_arg2)) shapeCasts_S64_S1x64 := by
  show StableHlo.after hostOps0 (fun b => m (c, b)) (Proc.devRef .tc main_v5) = _
  after_results; rfl

theorem V_v6 (c : Dev nD) : (V m c main_v6 : S1x64.Idx → Elt F .f32)
    = shapeCast S1x64 (m ((c : Thread nD τ).loc main_arg4)) shapeCasts_S64_S1x64 := by
  show StableHlo.after hostOps0 (fun b => m (c, b)) (Proc.devRef .tc main_v6) = _
  after_results; rfl

theorem V_v7 (c : Dev nD) : (V m c main_v7 : S1x64.Idx → Elt F .f32)
    = shapeCast S1x64 (m ((c : Thread nD τ).loc main_arg6)) shapeCasts_S64_S1x64 := by
  show StableHlo.after hostOps0 (fun b => m (c, b)) (Proc.devRef .tc main_v7) = _
  after_results; rfl

theorem V_v8 (c : Dev nD) : (V m c main_v8 : S1x64.Idx → Elt F .f32)
    = shapeCast S1x64 (m ((c : Thread nD τ).loc main_arg8)) shapeCasts_S64_S1x64 := by
  show StableHlo.after hostOps0 (fun b => m (c, b)) (Proc.devRef .tc main_v8) = _
  after_results; rfl

/-! ## … read at an index -/

/-- The reshaped x at (16·β + h, n, k) is x at (β, h, n, k): the same row-major position. -/
theorem V_v0_apply (c : Dev nD) (β : Fin 2) (h : Fin 16) (n : Fin 2048) (k : Fin 64) :
    (V m c main_v0 : S32x2048x64.Idx → Elt F .f32) (ix3 (bh β h) n k) = m ((c : Thread nD τ).loc main_arg0) (ix4 β h n k) :=
  (congrFun (V_v0 m c) _).trans (shapeCast_apply _ _ _ _ (by
    show (S2x16x2048x64.rowMajor (ix4 β h n k)).val = (S32x2048x64.rowMajor (ix3 (bh β h) n k)).val
    rw [Shape.rowMajor_val_four, Shape.rowMajor_val_three]
    show ((β.val * 16 + h.val) * 2048 + n.val) * 64 + k.val = ((16 * β.val + h.val) * 2048 + n.val) * 64 + k.val
    omega))

/-- A transposed weight at (k, e) is the weight at (e, k). -/
theorem V_v1_apply (c : Dev nD) (k e : Fin 64) :
    (V m c main_v1 : S64x64.Idx → Elt F .f32) (ix2 k e) = m ((c : Thread nD τ).loc main_arg1) (ix2 e k) :=
  (congrFun (V_v1 m c) _).trans (transpose_ix2_apply _ _ k e)
theorem V_v2_apply (c : Dev nD) (k e : Fin 64) :
    (V m c main_v2 : S64x64.Idx → Elt F .f32) (ix2 k e) = m ((c : Thread nD τ).loc main_arg3) (ix2 e k) :=
  (congrFun (V_v2 m c) _).trans (transpose_ix2_apply _ _ k e)
theorem V_v3_apply (c : Dev nD) (k e : Fin 64) :
    (V m c main_v3 : S64x64.Idx → Elt F .f32) (ix2 k e) = m ((c : Thread nD τ).loc main_arg5) (ix2 e k) :=
  (congrFun (V_v3 m c) _).trans (transpose_ix2_apply _ _ k e)
theorem V_v4_apply (c : Dev nD) (k e : Fin 64) :
    (V m c main_v4 : S64x64.Idx → Elt F .f32) (ix2 k e) = m ((c : Thread nD τ).loc main_arg7) (ix2 e k) :=
  (congrFun (V_v4 m c) _).trans (transpose_ix2_apply _ _ k e)

/-- A bias as a one-row matrix at (0, e) is the bias at e. -/
theorem V_v5_apply (c : Dev nD) (u : Fin 1) (e : Fin 64) :
    (V m c main_v5 : S1x64.Idx → Elt F .f32) (ix2 u e) = m ((c : Thread nD τ).loc main_arg2) (ix1 e) :=
  (congrFun (V_v5 m c) _).trans (shapeCast_a_1a_apply _ _ u e)
theorem V_v6_apply (c : Dev nD) (u : Fin 1) (e : Fin 64) :
    (V m c main_v6 : S1x64.Idx → Elt F .f32) (ix2 u e) = m ((c : Thread nD τ).loc main_arg4) (ix1 e) :=
  (congrFun (V_v6 m c) _).trans (shapeCast_a_1a_apply _ _ u e)
theorem V_v7_apply (c : Dev nD) (u : Fin 1) (e : Fin 64) :
    (V m c main_v7 : S1x64.Idx → Elt F .f32) (ix2 u e) = m ((c : Thread nD τ).loc main_arg6) (ix1 e) :=
  (congrFun (V_v7 m c) _).trans (shapeCast_a_1a_apply _ _ u e)
theorem V_v8_apply (c : Dev nD) (u : Fin 1) (e : Fin 64) :
    (V m c main_v8 : S1x64.Idx → Elt F .f32) (ix2 u e) = m ((c : Thread nD τ).loc main_arg8) (ix1 e) :=
  (congrFun (V_v8 m c) _).trans (shapeCast_a_1a_apply _ _ u e)

/-! ## The index maps over the grid, decided once -/

theorem idx0 : ∀ t : Fin cfg0.N, win0_0.index t 0 = t.val / 4 ∧ win0_0.index t 1 = 0 ∧ win0_0.index t 2 = 0 :=
  (by decide +kernel : ∀ t : Fin grid0.N, win0_0.index t 0 = t.val / 4 ∧ win0_0.index t 1 = 0 ∧ win0_0.index t 2 = 0)
theorem idx1 : ∀ t : Fin cfg0.N, win0_1.index t 0 = 0 ∧ win0_1.index t 1 = 0 :=
  (by decide +kernel : ∀ t : Fin grid0.N, win0_1.index t 0 = 0 ∧ win0_1.index t 1 = 0)
theorem idx2 : ∀ t : Fin cfg0.N, win0_2.index t 0 = 0 ∧ win0_2.index t 1 = 0 :=
  (by decide +kernel : ∀ t : Fin grid0.N, win0_2.index t 0 = 0 ∧ win0_2.index t 1 = 0)
theorem idx3 : ∀ t : Fin cfg0.N, win0_3.index t 0 = 0 ∧ win0_3.index t 1 = 0 :=
  (by decide +kernel : ∀ t : Fin grid0.N, win0_3.index t 0 = 0 ∧ win0_3.index t 1 = 0)
theorem idx4 : ∀ t : Fin cfg0.N, win0_4.index t 0 = 0 ∧ win0_4.index t 1 = 0 :=
  (by decide +kernel : ∀ t : Fin grid0.N, win0_4.index t 0 = 0 ∧ win0_4.index t 1 = 0)
theorem idx5 : ∀ t : Fin cfg0.N, win0_5.index t 0 = 0 ∧ win0_5.index t 1 = 0 :=
  (by decide +kernel : ∀ t : Fin grid0.N, win0_5.index t 0 = 0 ∧ win0_5.index t 1 = 0)
theorem idx6 : ∀ t : Fin cfg0.N, win0_6.index t 0 = 0 ∧ win0_6.index t 1 = 0 :=
  (by decide +kernel : ∀ t : Fin grid0.N, win0_6.index t 0 = 0 ∧ win0_6.index t 1 = 0)
theorem idx7 : ∀ t : Fin cfg0.N, win0_7.index t 0 = 0 ∧ win0_7.index t 1 = 0 :=
  (by decide +kernel : ∀ t : Fin grid0.N, win0_7.index t 0 = 0 ∧ win0_7.index t 1 = 0)
theorem idx8 : ∀ t : Fin cfg0.N, win0_8.index t 0 = 0 ∧ win0_8.index t 1 = 0 :=
  (by decide +kernel : ∀ t : Fin grid0.N, win0_8.index t 0 = 0 ∧ win0_8.index t 1 = 0)
theorem idx9 : ∀ t : Fin cfg0.N, win0_9.index t 0 = 0 ∧ win0_9.index t 1 = t.val / 4 ∧ win0_9.index t 2 = t.val % 4 ∧ win0_9.index t 3 = 0 :=
  (by decide +kernel : ∀ t : Fin grid0.N, win0_9.index t 0 = 0 ∧ win0_9.index t 1 = t.val / 4 ∧ win0_9.index t 2 = t.val % 4 ∧ win0_9.index t 3 = 0)
/-- The query tile of point t starts at row 512·(t % 4) of the x block. -/
theorem off1 : ∀ t : Fin cfg0.N, k0_off1 (grid0.coords t) 0 = 0 ∧ k0_off1 (grid0.coords t) 1 = 512 * (t.val % 4) ∧ k0_off1 (grid0.coords t) 2 = 0 :=
  (by decide +kernel : ∀ t : Fin grid0.N, k0_off1 (grid0.coords t) 0 = 0 ∧ k0_off1 (grid0.coords t) 1 = 512 * (t.val % 4) ∧ k0_off1 (grid0.coords t) 2 = 0)

theorem t_div_lt (t : Fin cfg0.N) : t.val / 4 < 32 := by have := t.isLt; have : cfg0.N = 128 := N_0; omega

/-! ## The blocks at a point -/

/-- The x block at point t, at (0, n, k), is the reshaped x at (t / 4, n, k). -/
theorem iblk0_apply (c : Dev nD) (t : Fin cfg0.N) (n : Fin 2048) (k : Fin 64) :
    (iblk m c 0 t : Vec F S1x2048x64 .f32) (ix3 0 n k) = (V m c main_v0 : S32x2048x64.Idx → Elt F .f32) (ix3 ⟨t.val / 4, t_div_lt t⟩ n k) := by
  have hi := idx0 t
  unfold iblk
  rw [View.read_apply]
  show V m c main_v0 _ = V m c main_v0 _
  refine congrArg _ (funext fun a => Fin.ext ?_)
  match a with
  | ⟨0, _⟩ => show win0_0.index t 0 * 1 + 1 * 0 = t.val / 4; rw [hi.1]; omega
  | ⟨1, _⟩ => show win0_0.index t 1 * 2048 + 1 * n.val = n.val; rw [hi.2.1]; omega
  | ⟨2, _⟩ => show win0_0.index t 2 * 64 + 1 * k.val = k.val; rw [hi.2.2]; omega

/-- The [2048,64] slab of the reshaped x at merged index i, as a block of shape [1,2048,64]. -/
def slab (c : Dev nD) (i : Fin 32) : Vec F S1x2048x64 .f32 :=
  fun y => (V m c main_v0 : S32x2048x64.Idx → Elt F .f32) (ix3 i (y 1) (y 2))

/-- The x block at point t is the slab of merged index t / 4. -/
theorem iblk0_eq (c : Dev nD) (t : Fin cfg0.N) : (iblk m c 0 t : Vec F S1x2048x64 .f32) = slab m c ⟨t.val / 4, t_div_lt t⟩ := by
  have hi := idx0 t
  funext y
  have h0 : (y 0).val < 1 := (y 0).isLt
  unfold iblk slab
  rw [View.read_apply]
  show V m c main_v0 _ = V m c main_v0 _
  refine congrArg _ (funext fun a => Fin.ext ?_)
  match a with
  | ⟨0, _⟩ => show win0_0.index t 0 * 1 + 1 * (y 0).val = t.val / 4; rw [hi.1]; omega
  | ⟨1, _⟩ => show win0_0.index t 1 * 2048 + 1 * (y 1).val = (y 1).val; rw [hi.2.1]; omega
  | ⟨2, _⟩ => show win0_0.index t 2 * 64 + 1 * (y 2).val = (y 2).val; rw [hi.2.2]; omega

/-- Slabs of equal merged index are equal. -/
theorem slab_congr (c : Dev nD) (a b : ℕ) (ha : a < 32) (hb : b < 32) (h : a = b) : slab m c ⟨a, ha⟩ = slab m c ⟨b, hb⟩ := by
  subst h; rfl

/-- Every weight and bias window's block, at every point, is its whole array. -/
theorem iblk1_eq (c : Dev nD) (t : Fin cfg0.N) : (iblk m c 1 t : Vec F S64x64 .f32) = (V m c main_v1 : S64x64.Idx → Elt F .f32) := by
  have hi := idx1 t
  funext y
  unfold iblk
  rw [View.read_apply]
  show V m c main_v1 _ = V m c main_v1 _
  refine congrArg _ (funext fun a => Fin.ext ?_)
  match a with
  | ⟨0, _⟩ => show win0_1.index t 0 * 64 + 1 * (y 0).val = (y 0).val; rw [hi.1]; omega
  | ⟨1, _⟩ => show win0_1.index t 1 * 64 + 1 * (y 1).val = (y 1).val; rw [hi.2]; omega

theorem iblk2_eq (c : Dev nD) (t : Fin cfg0.N) : (iblk m c 2 t : Vec F S1x64 .f32) = (V m c main_v5 : S1x64.Idx → Elt F .f32) := by
  have hi := idx2 t
  funext y
  unfold iblk
  rw [View.read_apply]
  show V m c main_v5 _ = V m c main_v5 _
  refine congrArg _ (funext fun a => Fin.ext ?_)
  match a with
  | ⟨0, _⟩ => show win0_2.index t 0 * 1 + 1 * (y 0).val = (y 0).val; rw [hi.1]; omega
  | ⟨1, _⟩ => show win0_2.index t 1 * 64 + 1 * (y 1).val = (y 1).val; rw [hi.2]; omega

theorem iblk3_eq (c : Dev nD) (t : Fin cfg0.N) : (iblk m c 3 t : Vec F S64x64 .f32) = (V m c main_v2 : S64x64.Idx → Elt F .f32) := by
  have hi := idx3 t
  funext y
  unfold iblk
  rw [View.read_apply]
  show V m c main_v2 _ = V m c main_v2 _
  refine congrArg _ (funext fun a => Fin.ext ?_)
  match a with
  | ⟨0, _⟩ => show win0_3.index t 0 * 64 + 1 * (y 0).val = (y 0).val; rw [hi.1]; omega
  | ⟨1, _⟩ => show win0_3.index t 1 * 64 + 1 * (y 1).val = (y 1).val; rw [hi.2]; omega

theorem iblk4_eq (c : Dev nD) (t : Fin cfg0.N) : (iblk m c 4 t : Vec F S1x64 .f32) = (V m c main_v6 : S1x64.Idx → Elt F .f32) := by
  have hi := idx4 t
  funext y
  unfold iblk
  rw [View.read_apply]
  show V m c main_v6 _ = V m c main_v6 _
  refine congrArg _ (funext fun a => Fin.ext ?_)
  match a with
  | ⟨0, _⟩ => show win0_4.index t 0 * 1 + 1 * (y 0).val = (y 0).val; rw [hi.1]; omega
  | ⟨1, _⟩ => show win0_4.index t 1 * 64 + 1 * (y 1).val = (y 1).val; rw [hi.2]; omega

theorem iblk5_eq (c : Dev nD) (t : Fin cfg0.N) : (iblk m c 5 t : Vec F S64x64 .f32) = (V m c main_v3 : S64x64.Idx → Elt F .f32) := by
  have hi := idx5 t
  funext y
  unfold iblk
  rw [View.read_apply]
  show V m c main_v3 _ = V m c main_v3 _
  refine congrArg _ (funext fun a => Fin.ext ?_)
  match a with
  | ⟨0, _⟩ => show win0_5.index t 0 * 64 + 1 * (y 0).val = (y 0).val; rw [hi.1]; omega
  | ⟨1, _⟩ => show win0_5.index t 1 * 64 + 1 * (y 1).val = (y 1).val; rw [hi.2]; omega

theorem iblk6_eq (c : Dev nD) (t : Fin cfg0.N) : (iblk m c 6 t : Vec F S1x64 .f32) = (V m c main_v7 : S1x64.Idx → Elt F .f32) := by
  have hi := idx6 t
  funext y
  unfold iblk
  rw [View.read_apply]
  show V m c main_v7 _ = V m c main_v7 _
  refine congrArg _ (funext fun a => Fin.ext ?_)
  match a with
  | ⟨0, _⟩ => show win0_6.index t 0 * 1 + 1 * (y 0).val = (y 0).val; rw [hi.1]; omega
  | ⟨1, _⟩ => show win0_6.index t 1 * 64 + 1 * (y 1).val = (y 1).val; rw [hi.2]; omega

theorem iblk7_eq (c : Dev nD) (t : Fin cfg0.N) : (iblk m c 7 t : Vec F S64x64 .f32) = (V m c main_v4 : S64x64.Idx → Elt F .f32) := by
  have hi := idx7 t
  funext y
  unfold iblk
  rw [View.read_apply]
  show V m c main_v4 _ = V m c main_v4 _
  refine congrArg _ (funext fun a => Fin.ext ?_)
  match a with
  | ⟨0, _⟩ => show win0_7.index t 0 * 64 + 1 * (y 0).val = (y 0).val; rw [hi.1]; omega
  | ⟨1, _⟩ => show win0_7.index t 1 * 64 + 1 * (y 1).val = (y 1).val; rw [hi.2]; omega

theorem iblk8_eq (c : Dev nD) (t : Fin cfg0.N) : (iblk m c 8 t : Vec F S1x64 .f32) = (V m c main_v8 : S1x64.Idx → Elt F .f32) := by
  have hi := idx8 t
  funext y
  unfold iblk
  rw [View.read_apply]
  show V m c main_v8 _ = V m c main_v8 _
  refine congrArg _ (funext fun a => Fin.ext ?_)
  match a with
  | ⟨0, _⟩ => show win0_8.index t 0 * 1 + 1 * (y 0).val = (y 0).val; rw [hi.1]; omega
  | ⟨1, _⟩ => show win0_8.index t 1 * 64 + 1 * (y 1).val = (y 1).val; rw [hi.2]; omega

end Cert.KernelIdeal.Arrays

end
-- ==== Proof.PointValues.lean ====
/-
  What the scratch arrays and the output block hold after each grid point, by induction on the point.

  Points run t = 0, 1, …, 127, four per merged (batch, head) index i = t / 4.  At t with t % 4 = 0 the three scratch arrays are
  rewritten from the slab of index i; at the three points that follow they are untouched, and those points have the same i.  So after
  EVERY point t the scratch arrays hold the key-side values of slab t / 4, and the output block of point t is computed from that slab's
  query tile t % 4 against them.
-/
import proofs.«163745_j81716047774352_2_alg».proof.Proof.Pieces
import proofs.«163745_j81716047774352_2_alg».proof.Proof.Arrays

noncomputable section

open Idealize.ShloMosaic Idealize.ShloMosaic.TcCoe Idealize.SL.Sem Idealize.ShloMosaic.ValueIdx
open Idealize.ShloMosaic.Pipeline (Dat)

namespace Cert.KernelIdeal.PointValues

open Cert.KernelIdeal Cert.KernelIdeal.Gen Cert.KernelIdeal.Pieces Cert.KernelIdeal.Arrays

variable {F : FTy → Type} [FloatOps F]
variable (m : (ℓ : Loc nD τ sig) → Buf (Elt F) ℓ)

/-- The key-side contents of the three scratch arrays for the slab of merged index i. -/
def keyT (c : Dev nD) (i : Fin 32) : Vec F S64x2048 .f32 := k0_pay5 (slab m c i) (V m c main_v2) (V m c main_v6)
def expT (c : Dev nD) (i : Fin 32) : Vec F S64x2048 .f32 := k0_pay6 (slab m c i) (V m c main_v2) (V m c main_v6) (V m c main_v4) (V m c main_v8)
def expNegT (c : Dev nD) (i : Fin 32) : Vec F S64x2048 .f32 := k0_pay7 (slab m c i) (V m c main_v2) (V m c main_v6) (V m c main_v4) (V m c main_v8)

theorem keyT_congr (c : Dev nD) (a b : ℕ) (ha : a < 32) (hb : b < 32) (h : a = b) : keyT m c ⟨a, ha⟩ = keyT m c ⟨b, hb⟩ := by subst h; rfl
theorem expT_congr (c : Dev nD) (a b : ℕ) (ha : a < 32) (hb : b < 32) (h : a = b) : expT m c ⟨a, ha⟩ = expT m c ⟨b, hb⟩ := by subst h; rfl
theorem expNegT_congr (c : Dev nD) (a b : ℕ) (ha : a < 32) (hb : b < 32) (h : a = b) : expNegT m c ⟨a, ha⟩ = expNegT m c ⟨b, hb⟩ := by subst h; rfl

theorem div_lt (n : ℕ) (hn : n < cfg0.N) : n / 4 < 32 := by have : cfg0.N = 128 := N_0; omega

set_option maxHeartbeats 4000000 in
/-- After every point the scratch arrays hold the key-side values of the point's slab. -/
theorem scratch_eq (c : Dev nD) : ∀ (n : ℕ) (hn : n < cfg0.N),
    (outsAt0 m c n hn).2.1 = keyT m c ⟨n / 4, div_lt n hn⟩
    ∧ (outsAt0 m c n hn).2.2.1 = expT m c ⟨n / 4, div_lt n hn⟩
    ∧ (outsAt0 m c n hn).2.2.2 = expNegT m c ⟨n / 4, div_lt n hn⟩ := by
  intro n
  induction n using Nat.strong_induction_on with
  | _ n ih =>
    intro hn
    by_cases h0 : n % 4 = 0
    · rw [outsAt0_A m c ⟨n, hn⟩ h0]
      refine ⟨?_, ?_, ?_⟩ <;> dsimp only
      · rw [sout_A_0, iblk0_eq m c ⟨n, hn⟩, iblk3_eq m c ⟨n, hn⟩, iblk4_eq m c ⟨n, hn⟩]
        rfl
      · rw [sout_A_1, iblk0_eq m c ⟨n, hn⟩, iblk3_eq m c ⟨n, hn⟩, iblk4_eq m c ⟨n, hn⟩, iblk7_eq m c ⟨n, hn⟩, iblk8_eq m c ⟨n, hn⟩]
        rfl
      · rw [sout_A_2, iblk0_eq m c ⟨n, hn⟩, iblk3_eq m c ⟨n, hn⟩, iblk4_eq m c ⟨n, hn⟩, iblk7_eq m c ⟨n, hn⟩, iblk8_eq m c ⟨n, hn⟩]
        rfl
    · have hlt : n - 1 < n := by omega
      have hn' : n - 1 < cfg0.N := Nat.lt_of_le_of_lt (Nat.sub_le _ _) hn
      have ihn := ih (n - 1) hlt hn'
      rw [outsAt0_B m c ⟨n, hn⟩ h0]
      refine ⟨?_, ?_, ?_⟩ <;> dsimp only
      · unfold sout0_B_0
        exact ihn.1.trans (keyT_congr m c _ _ _ _ (by omega))
      · unfold sout0_B_1
        exact ihn.2.1.trans (expT_congr m c _ _ _ _ (by omega))
      · unfold sout0_B_2
        exact ihn.2.2.trans (expNegT_congr m c _ _ _ _ (by omega))

set_option maxHeartbeats 4000000 in
/-- The output block of point t: the query tile t % 4 of slab t / 4 against that slab's key-side values. -/
theorem out_eq (c : Dev nD) (t : Fin cfg0.N) :
    (outsAt0 m c t.val t.isLt).1
      = outTile (grid0.coords t) (slab m c ⟨t.val / 4, t_div_lt t⟩) (V m c main_v1) (V m c main_v5) (V m c main_v3) (V m c main_v7)
          (keyT m c ⟨t.val / 4, t_div_lt t⟩) (expT m c ⟨t.val / 4, t_div_lt t⟩) (expNegT m c ⟨t.val / 4, t_div_lt t⟩) := by
  by_cases h0 : t.val % 4 = 0
  · rw [outsAt0_A m c t h0]
    dsimp only
    rw [out_A, iblk0_eq m c t, iblk1_eq m c t, iblk2_eq m c t, iblk3_eq m c t, iblk4_eq m c t, iblk5_eq m c t, iblk6_eq m c t,
      iblk7_eq m c t, iblk8_eq m c t]
    rfl
  · have hs := scratch_eq m c (t.val - 1) (Nat.lt_of_le_of_lt (Nat.sub_le _ _) t.isLt)
    rw [outsAt0_B m c t h0]
    dsimp only
    rw [out_B, hs.1, hs.2.1, hs.2.2, iblk0_eq m c t, iblk1_eq m c t, iblk2_eq m c t, iblk5_eq m c t, iblk6_eq m c t,
      keyT_congr m c ((t.val - 1) / 4) (t.val / 4) _ (t_div_lt t) (by omega),
      expT_congr m c ((t.val - 1) / 4) (t.val / 4) _ (t_div_lt t) (by omega),
      expNegT_congr m c ((t.val - 1) / 4) (t.val / 4) _ (t_div_lt t) (by omega)]

end Cert.KernelIdeal.PointValues

end
-- ==== Proof.Spec.lean ====
/-
  The function both programs compute, written once over the argument arrays, index by index, on the extended reals.

  With x of shape [2,16,2048,64], four weight matrices W of shape [64,64] stored output-row first, and four biases of
  shape [64], a projection is  proj Y W b (β,h,n,e) = (∑ k, Y(β,h,n,k) · W(e,k)) + b(e).
  The query and key rows are q0 = proj x Wq bq and k0 = proj x Wk bk; their feature pre-activations are
  mq = proj q0 Wmq bmq and mk = proj k0 Wmk bmk.  The feature map is (exp u, exp (−u)), so the feature product of a query row m and a
  key row n is  qk(m,n) = (∑ k, exp mq(m,k) · exp mk(n,k)) + (∑ k, exp (−mq(m,k)) · exp (−mk(n,k))),  and the predicted attention
  is qk normalised over the keys.  The true attention is the softmax over the keys of the scaled scores
  sc(m,n) = (∑ k, q0(m,k) · k0(n,k)) · (1/8), taken the stable way: subtract the row maximum (started from −∞), exponentiate,
  normalise.  The result stacks the two: entry (0,β,h,m,n) is the predicted attention, entry (1,β,h,m,n) the true one.
-/
import Idealize.ShloMosaic.PureOps.Ideal
import Idealize.ShloMosaic.Lib.ValueIdx

noncomputable section

namespace Hedgehog

open Idealize.ShloMosaic Idealize.ShloMosaic.ValueIdx

/-- Rows indexed by (batch, head, position), 64 features each. -/
abbrev Rows := Fin 2 → Fin 16 → Fin 2048 → Fin 64 → EReal

/-- A linear layer with the weight stored output-row first: (∑ k, Y(β,h,n,k) · W(e,k)) + b(e). -/
def proj (Y : Rows) (W : (⟨2, ![64, 64]⟩ : Shape).Idx → EReal) (b : (⟨1, ![64]⟩ : Shape).Idx → EReal) : Rows :=
  fun β h n e => (∑ k : Fin 64, Y β h n k * W (ix2 e k)) + b (ix1 e)

/-- The input array as rows. -/
def rows (x : (⟨4, ![2, 16, 2048, 64]⟩ : Shape).Idx → EReal) : Rows := fun β h n k => x (ix4 β h n k)

/-- The feature product of query row m and key row n: both signs of the exponent, summed over the 64 features. -/
def featDot (mq mk : Rows) (β : Fin 2) (h : Fin 16) (m n : Fin 2048) : EReal :=
  (∑ k : Fin 64, Ideal.exp (mq β h m k) * Ideal.exp (mk β h n k))
    + ∑ k : Fin 64, Ideal.exp (-(mq β h m k)) * Ideal.exp (-(mk β h n k))

/-- A row normalised by its sum over the keys. -/
def normalise (f : Fin 2048 → EReal) (n : Fin 2048) : EReal := Ideal.div (f n) (∑ n' : Fin 2048, f n')

/-- The scaled score of query row m against key row n. -/
def score (q0 k0 : Rows) (β : Fin 2) (h : Fin 16) (m n : Fin 2048) : EReal :=
  (∑ k : Fin 64, q0 β h m k * k0 β h n k) * Ideal.ofBits .f32 0x3E000000#32

/-- The maximum of a row, folded from −∞, and once more against −∞. -/
def rowMax (f : Fin 2048 → EReal) : EReal :=
  max (Ideal.ofBits .f32 0xFF800000#32) ((Finset.univ : Finset (Fin 2048)).fold max (Ideal.ofBits .f32 0xFF800000#32) f)

/-- The stable softmax of a row: exp (f n − max f), normalised. -/
def softmaxRow (f : Fin 2048 → EReal) (n : Fin 2048) : EReal :=
  normalise (fun n' => Ideal.exp (f n' - rowMax f)) n

section
variable (x : (⟨4, ![2, 16, 2048, 64]⟩ : Shape).Idx → EReal)
  (Wq : (⟨2, ![64, 64]⟩ : Shape).Idx → EReal) (bq : (⟨1, ![64]⟩ : Shape).Idx → EReal)
  (Wk : (⟨2, ![64, 64]⟩ : Shape).Idx → EReal) (bk : (⟨1, ![64]⟩ : Shape).Idx → EReal)
  (Wmq : (⟨2, ![64, 64]⟩ : Shape).Idx → EReal) (bmq : (⟨1, ![64]⟩ : Shape).Idx → EReal)
  (Wmk : (⟨2, ![64, 64]⟩ : Shape).Idx → EReal) (bmk : (⟨1, ![64]⟩ : Shape).Idx → EReal)

/-- The predicted attention at (β,h,m,n). -/
def pred (β : Fin 2) (h : Fin 16) (m n : Fin 2048) : EReal :=
  normalise (featDot (proj (proj (rows x) Wq bq) Wmq bmq) (proj (proj (rows x) Wk bk) Wmk bmk) β h m) n

/-- The true attention at (β,h,m,n). -/
def tru (β : Fin 2) (h : Fin 16) (m n : Fin 2048) : EReal :=
  softmaxRow (score (proj (rows x) Wq bq) (proj (rows x) Wk bk) β h m) n

/-- The stacked result by coordinates. -/
def out (s : Fin 2) (β : Fin 2) (h : Fin 16) (m n : Fin 2048) : EReal :=
  if s.val = 0 then pred x Wq bq Wk bk Wmq bmq Wmk bmk β h m n else tru x Wq bq Wk bk β h m n

/-- The stacked result as an array of shape [2,2,16,2048,2048]. -/
def G : (⟨5, ![2, 2, 16, 2048, 2048]⟩ : Shape).Idx → EReal :=
  fun i => out x Wq bq Wk bk Wmq bmq Wmk bmk (i 0) (i 1) (i 2) (i 3) (i 4)

end

/-! ## The same quantities for one block of rows

  The kernel works on blocks: for one (batch, head) pair it holds all 2048 key rows and a tile of 512 query rows, its weights are
  stored input-row first (the transposes of the W above) and its biases as one-row matrices.  A linear layer on a block of R rows is
  lin Y Wt b (r,e) = (∑ k, Y(r,k) · Wt(k,e)) + b(0,e). -/

namespace Block

/-- A linear layer on a block of rows with the weight stored input-row first and the bias as a one-row matrix. -/
def lin {R : Nat} (Y : Fin R → Fin 64 → EReal) (Wt : (⟨2, ![64, 64]⟩ : Shape).Idx → EReal)
    (b : (⟨2, ![1, 64]⟩ : Shape).Idx → EReal) : Fin R → Fin 64 → EReal :=
  fun r e => (∑ k : Fin 64, Y r k * Wt (ix2 k e)) + b (ix2 0 e)

/-- The rows of a block of shape [1, R, 64]. -/
def blockRows {R : Nat} (x : (⟨3, ![1, R, 64]⟩ : Shape).Idx → EReal) : Fin R → Fin 64 → EReal := fun r k => x (ix3 0 r k)

/-- The feature product of a query tile's pre-activations against key features stored transposed (feature first):
    (∑ k, exp mq(r,k) · P(k,n)) + (∑ k, exp (−mq(r,k)) · N(k,n)). -/
def featDotT (mq : Fin 512 → Fin 64 → EReal) (P N : (⟨2, ![64, 2048]⟩ : Shape).Idx → EReal) (r : Fin 512) (n : Fin 2048) : EReal :=
  (∑ k : Fin 64, Ideal.exp (mq r k) * P (ix2 k n)) + ∑ k : Fin 64, Ideal.exp (-(mq r k)) * N (ix2 k n)

/-- The scaled scores of a query tile against key rows stored transposed. -/
def scoreT (q0 : (⟨2, ![512, 64]⟩ : Shape).Idx → EReal) (KT : (⟨2, ![64, 2048]⟩ : Shape).Idx → EReal) (r : Fin 512) (n : Fin 2048) : EReal :=
  (∑ k : Fin 64, q0 (ix2 r k) * KT (ix2 k n)) * Ideal.ofBits .f32 0x3E000000#32

end Block

end Hedgehog

end
-- ==== Proof.PayRead.lean ====
/-
  The kernel body's arithmetic, read one entry at a time on the extended reals.

  The body's values are pure terms over the arrays it loads: the key rows k0 = x · WkT + bk and their feature
  pre-activations mk = k0 · WmkT + bmk; the three scratch arrays (k0, exp mk and exp (−mk), each stored transposed, feature
  first); the query rows q0 = x_q · WqT + bq of a tile of 512 positions; the tile's feature product against the stored key
  features; and the two stored blocks, the feature product normalised over the keys and the stable softmax over the keys
  of the scaled scores q0 · k0ᵀ · (1/8). Each theorem below reads one of these terms at an index given by coordinates and
  states the entry with the block-level functions of the specification (`Hedgehog.Block.lin`, `blockRows`, `featDotT`,
  `scoreT`, `Hedgehog.normalise`, `softmaxRow`).

  The ingredients: a matrix product into the zero accumulator is the sum over the shared axis (the contraction index of
  the dimension numbers re-indexed to that axis's coordinate); a sum or a maximum along the lanes is the sum or the fold
  of `max` over the row; the casts between `[a]`, `[a, 1]`, `[a, b]`, `[1, a, b]` and `[1, 1, a, b]`, the row and column
  broadcasts and the transpose each read one entry of their operand; `0 − y` is `−y`.
-/
import proofs.«163745_j81716047774352_2_alg».proof.Proof.Gen.KernelIdeal.Skeleton
import proofs.«163745_j81716047774352_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayRead

open Cert.KernelIdeal Cert.KernelIdeal.Gen Idealize.ShloMosaic Idealize.ShloMosaic.ValueIdx Hedgehog

/-! ## Layout operations the body uses that the library does not read at coordinates -/

section Layout
variable {α : Type}

/-- A vector `[a]` cast to a column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A matrix `[a, b]` cast to `[1, 1, a, b]` reads, at `(u, v, i, j)`, the operand at `(i, j)`, whatever the unit
    coordinates. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    rw [hu, hv, Nat.zero_mul, Nat.zero_add])

end Layout

/-! ## A plain matrix product read at an index -/

/-- A plain matrix product into the zero accumulator, read at `(r, c)`: the sum over the shared axis of row `r` of the
    left operand against column `c` of the right one. The contraction index of the dimension numbers is re-indexed to
    the shared axis's coordinate. -/
theorem matmul_plain_apply (M K N : Nat) (A : FVec Ideal ⟨2, ![M, K]⟩ .f32) (B : FVec Ideal ⟨2, ![K, N]⟩ .f32)
    (r : Fin M) (c : Fin N) :
    matmul (F := Ideal) (DotDims.plain M K N) none A B (constant (F := Ideal) ⟨2, ![M, N]⟩ .f32 0x00000000#32) (ix2 r c)
      = ∑ k : Fin K, A (ix2 r k) * B (ix2 k c) := by
  simp only [matmul]
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => rfl
      | ⟨1, _⟩ => exact ((DotDims.plain M K N).lhsIdx_val_of_single rfl _ _).trans hk)
  have er : (DotDims.plain M K N).rhsIdx (ix2 r c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => rfl)
  rw [el, er]

/-- The body's three dimension-number records are the plain ones: 2048 × 64 by 64 × 64 (the key projections) … -/
theorem matmul_key_apply (A : FVec Ideal S2048x64 .f32) (B : FVec Ideal S64x64 .f32) (n : Fin 2048) (e : Fin 64) :
    matmul (F := Ideal) dot_S2048x64_S64x64_S2048x64_1_0_0_1_n_n none A B (constant (F := Ideal) S2048x64 .f32 0x00000000#32) (ix2 n e)
      = ∑ k : Fin 64, A (ix2 n k) * B (ix2 k e) :=
  matmul_plain_apply 2048 64 64 A B n e

/-- … 512 × 64 by 64 × 64 (the query projections) … -/
theorem matmul_query_apply (A : FVec Ideal S512x64 .f32) (B : FVec Ideal S64x64 .f32) (r : Fin 512) (e : Fin 64) :
    matmul (F := Ideal) dot_S512x64_S64x64_S512x64_1_0_0_1_n_n none A B (constant (F := Ideal) S512x64 .f32 0x00000000#32) (ix2 r e)
      = ∑ k : Fin 64, A (ix2 r k) * B (ix2 k e) :=
  matmul_plain_apply 512 64 64 A B r e

/-- … and 512 × 64 by 64 × 2048 (a query tile against all keys, stored feature first). -/
theorem matmul_tile_apply (A : FVec Ideal S512x64 .f32) (B : FVec Ideal S64x2048 .f32) (r : Fin 512) (n : Fin 2048) :
    matmul (F := Ideal) dot_S512x64_S64x2048_S512x2048_1_0_0_1_n_n none A B (constant (F := Ideal) S512x2048 .f32 0x00000000#32) (ix2 r n)
      = ∑ k : Fin 64, A (ix2 r k) * B (ix2 k n) :=
  matmul_plain_apply 512 64 2048 A B r n

/-! ## The projections -/

/-- The key rows: row `n` of the block against the weight, plus the bias. -/
theorem k0_pay3_apply (xf : Vec Ideal S1x2048x64 .f32) (WkT : Vec Ideal S64x64 .f32) (bk : Vec Ideal S1x64 .f32)
    (n : Fin 2048) (e : Fin 64) :
    k0_pay3 (F := Ideal) xf WkT bk (ix2 n e) = Block.lin (Block.blockRows xf) WkT bk n e := by
  unfold k0_pay3 Block.lin Block.blockRows
  refine (addf_apply _ _ _).trans ?_
  refine congrArg₂ (· + ·) ?_ ?_
  · refine (matmul_key_apply _ _ n e).trans ?_
    exact Finset.sum_congr rfl fun k _ =>
      congrArg₂ (· * ·) (shapeCast_1ab_ab_apply xf _ n k) (congrFun (shapeCast_self WkT _) _)
  · exact (broadcastTo_1b_ab_apply _ _ n e).trans (congrFun (shapeCast_self bk _) _)

/-- The query rows of a tile: the same linear layer on 512 rows. -/
theorem k0_pay8_apply (xq : Vec Ideal S1x512x64 .f32) (WqT : Vec Ideal S64x64 .f32) (bq : Vec Ideal S1x64 .f32)
    (r : Fin 512) (e : Fin 64) :
    k0_pay8 (F := Ideal) xq WqT bq (ix2 r e) = Block.lin (Block.blockRows xq) WqT bq r e := by
  unfold k0_pay8 Block.lin Block.blockRows
  refine (addf_apply _ _ _).trans ?_
  refine congrArg₂ (· + ·) ?_ ?_
  · refine (matmul_query_apply _ _ r e).trans ?_
    exact Finset.sum_congr rfl fun k _ =>
      congrArg₂ (· * ·) (shapeCast_1ab_ab_apply xq _ r k) (congrFun (shapeCast_self WqT _) _)
  · exact (broadcastTo_1b_ab_apply _ _ r e).trans (congrFun (shapeCast_self bq _) _)

/-- The first scratch array holds the key rows transposed. -/
theorem k0_pay5_apply (xf : Vec Ideal S1x2048x64 .f32) (WkT : Vec Ideal S64x64 .f32) (bk : Vec Ideal S1x64 .f32)
    (d : Fin 64) (n : Fin 2048) :
    k0_pay5 (F := Ideal) xf WkT bk (ix2 d n) = Block.lin (Block.blockRows xf) WkT bk n d := by
  unfold k0_pay5
  refine (congrFun (shapeCast_self _ _) _).trans ?_
  exact (transpose_ix2_apply _ _ d n).trans (k0_pay3_apply xf WkT bk n d)

/-- The keys' feature pre-activations: the second linear layer on the key rows. -/
theorem k0_pay4_apply (xf : Vec Ideal S1x2048x64 .f32) (WkT : Vec Ideal S64x64 .f32) (bk : Vec Ideal S1x64 .f32)
    (WmkT : Vec Ideal S64x64 .f32) (bmk : Vec Ideal S1x64 .f32) (n : Fin 2048) (e : Fin 64) :
    k0_pay4 (F := Ideal) xf WkT bk WmkT bmk (ix2 n e)
      = Block.lin (Block.lin (Block.blockRows xf) WkT bk) WmkT bmk n e := by
  unfold k0_pay4
  refine (addf_apply _ _ _).trans ?_
  show _ = (∑ k : Fin 64, Block.lin (Block.blockRows xf) WkT bk n k * WmkT (ix2 k e)) + bmk (ix2 0 e)
  refine congrArg₂ (· + ·) ?_ ?_
  · refine (matmul_key_apply _ _ n e).trans ?_
    exact Finset.sum_congr rfl fun k _ =>
      congrArg₂ (· * ·) (k0_pay3_apply xf WkT bk n k) (congrFun (shapeCast_self WmkT _) _)
  · exact (broadcastTo_1b_ab_apply _ _ n e).trans (congrFun (shapeCast_self bmk _) _)

/-- The second scratch array holds the keys' positive features, transposed: exp of the pre-activation. -/
theorem k0_pay6_apply (xf : Vec Ideal S1x2048x64 .f32) (WkT : Vec Ideal S64x64 .f32) (bk : Vec Ideal S1x64 .f32)
    (WmkT : Vec Ideal S64x64 .f32) (bmk : Vec Ideal S1x64 .f32) (d : Fin 64) (n : Fin 2048) :
    k0_pay6 (F := Ideal) xf WkT bk WmkT bmk (ix2 d n)
      = Ideal.exp (Block.lin (Block.lin (Block.blockRows xf) WkT bk) WmkT bmk n d) := by
  unfold k0_pay6
  refine (congrFun (shapeCast_self _ _) _).trans ?_
  refine (transpose_ix2_apply _ _ d n).trans ?_
  exact congrArg Ideal.exp (k0_pay4_apply xf WkT bk WmkT bmk n d)

/-- The third scratch array holds the keys' negative features, transposed: exp of zero minus the pre-activation,
    that is, of its negation. -/
theorem k0_pay7_apply (xf : Vec Ideal S1x2048x64 .f32) (WkT : Vec Ideal S64x64 .f32) (bk : Vec Ideal S1x64 .f32)
    (WmkT : Vec Ideal S64x64 .f32) (bmk : Vec Ideal S1x64 .f32) (d : Fin 64) (n : Fin 2048) :
    k0_pay7 (F := Ideal) xf WkT bk WmkT bmk (ix2 d n)
      = Ideal.exp (-(Block.lin (Block.lin (Block.blockRows xf) WkT bk) WmkT bmk n d)) := by
  unfold k0_pay7
  refine (congrFun (shapeCast_self _ _) _).trans ?_
  refine (transpose_ix2_apply _ _ d n).trans ?_
  show Ideal.exp (Ideal.ofBits .f32 0x00000000#32 - k0_pay4 (F := Ideal) xf WkT bk WmkT bmk (ix2 n d)) = _
  rw [Ideal.ofBits_zero_f32, zero_sub, k0_pay4_apply]

/-! ## The feature product of a query tile -/

/-- The queries' feature pre-activations, as the body spells them: the second linear layer on the tile's query rows. -/
theorem mq_apply (xq : Vec Ideal S1x512x64 .f32) (WqT : Vec Ideal S64x64 .f32) (bq : Vec Ideal S1x64 .f32)
    (WmqT : Vec Ideal S64x64 .f32) (bmq : Vec Ideal S1x64 .f32) (r : Fin 512) (e : Fin 64) :
    addf (matmul (F := Ideal) dot_S512x64_S64x64_S512x64_1_0_0_1_n_n none (k0_pay8 (F := Ideal) xq WqT bq)
          (shapeCast S64x64 WmqT shapeCasts_S64x64_S64x64 : FVec Ideal S64x64 .f32)
          (constant (F := Ideal) S512x64 .f32 0x00000000#32))
        (broadcastTo S512x64 (shapeCast S1x64 bmq shapeCasts_S1x64_S1x64 : FVec Ideal S1x64 .f32)
          broadcasts_S1x64_S512x64) (ix2 r e)
      = Block.lin (Block.lin (Block.blockRows xq) WqT bq) WmqT bmq r e := by
  refine (addf_apply _ _ _).trans ?_
  show _ = (∑ k : Fin 64, Block.lin (Block.blockRows xq) WqT bq r k * WmqT (ix2 k e)) + bmq (ix2 0 e)
  refine congrArg₂ (· + ·) ?_ ?_
  · refine (matmul_query_apply _ _ r e).trans ?_
    exact Finset.sum_congr rfl fun k _ =>
      congrArg₂ (· * ·) (k0_pay8_apply xq WqT bq r k) (congrFun (shapeCast_self WmqT _) _)
  · exact (broadcastTo_1b_ab_apply _ _ r e).trans (congrFun (shapeCast_self bmq _) _)

/-- The feature product of the tile's query rows against the stored key features: the positive features against the
    array `P`, the negative ones against `N`, both summed over the 64 features. -/
theorem k0_pay9_apply (xq : Vec Ideal S1x512x64 .f32) (WqT : Vec Ideal S64x64 .f32) (bq : Vec Ideal S1x64 .f32)
    (WmqT : Vec Ideal S64x64 .f32) (bmq : Vec Ideal S1x64 .f32) (P N : Vec Ideal S64x2048 .f32)
    (r : Fin 512) (n : Fin 2048) :
    k0_pay9 (F := Ideal) xq WqT bq WmqT bmq P N (ix2 r n)
      = Block.featDotT (Block.lin (Block.lin (Block.blockRows xq) WqT bq) WmqT bmq) P N r n := by
  unfold k0_pay9 Block.featDotT
  refine (addf_apply _ _ _).trans ?_
  refine congrArg₂ (· + ·) ?_ ?_
  · refine (matmul_tile_apply _ _ r n).trans ?_
    refine Finset.sum_congr rfl fun k _ => congrArg (· * P (ix2 k n)) ?_
    exact congrArg Ideal.exp (mq_apply xq WqT bq WmqT bmq r k)
  · refine (matmul_tile_apply _ _ r n).trans ?_
    refine Finset.sum_congr rfl fun k _ => congrArg (· * N (ix2 k n)) ?_
    show Ideal.exp (Ideal.ofBits .f32 0x00000000#32 - _) = _
    rw [Ideal.ofBits_zero_f32, zero_sub]
    exact congrArg (fun y => Ideal.exp (-y)) (mq_apply xq WqT bq WmqT bmq r k)

/-! ## Sums and maxima along the lanes -/

/-- The sum over the lanes of a `[512, 2048]` array, read at row `r`. -/
theorem laneSum_apply (src : FVec Ideal S512x2048 .f32) (hφ : FKind.Formats .f32)
    (hacc : (0x00000000#32 : BitVec 32) = FKind.add.neutral .f32 hφ) (r : Fin 512) :
    multiReduction (F := Ideal) .add [1] S512 src 0x00000000#32 reduces_S512x2048_S512 hφ hacc (ix1 r)
      = ∑ n : Fin 2048, src (ix2 r n) := by
  refine (Ideal.multiReduction_add_single src 0x00000000#32 reduces_S512x2048_S512 hφ hacc (ix1 r)).trans ?_
  exact Finset.sum_congr rfl fun k _ => congrArg src (funext fun c => Fin.ext (by
    match c with
    | ⟨0, _⟩ => rfl
    | ⟨1, _⟩ => rfl))

/-- The maximum over the lanes of a `[512, 2048]` array, read at row `r`: the fold of `max` from the accumulator's
    value over the row. -/
theorem laneMax_apply (src : FVec Ideal S512x2048 .f32) (hφ : FKind.Formats .f32)
    (hacc : (0xFF800000#32 : BitVec 32) = FKind.maximumf.neutral .f32 hφ) (r : Fin 512) :
    multiReduction (F := Ideal) .maximumf [1] S512 src 0xFF800000#32 reduces_S512x2048_S512 hφ hacc (ix1 r)
      = (Finset.univ : Finset (Fin 2048)).fold max (Ideal.ofBits .f32 0xFF800000#32) (fun n => src (ix2 r n)) := by
  refine (Ideal.multiReduction_maximumf_single src 0xFF800000#32 reduces_S512x2048_S512 hφ hacc (ix1 r)).trans ?_
  exact congrArg ((Finset.univ : Finset (Fin 2048)).fold max (Ideal.ofBits .f32 0xFF800000#32))
    (funext fun k => congrArg src (funext fun c => Fin.ext (by
      match c with
      | ⟨0, _⟩ => rfl
      | ⟨1, _⟩ => rfl)))

/-! ## The two stored attention blocks -/

/-- The predicted attention block: each row of the feature product divided by its sum over the keys. -/
theorem k0_pay1_apply (v31 : FVec Ideal S512x2048 .f32) (r : Fin 512) (n : Fin 2048) :
    k0_pay1 (F := Ideal) v31 (ix4 (0 : Fin 1) (0 : Fin 1) r n) = Hedgehog.normalise (fun n' => v31 (ix2 r n')) n := by
  unfold k0_pay1 Hedgehog.normalise
  refine (shapeCast_ab_11ab_apply _ _ 0 0 r n).trans ?_
  refine (divf_apply _ _ _).trans ?_
  refine congrArg (Ideal.div (v31 (ix2 r n))) ?_
  refine (broadcastTo_a1_ab_apply _ _ r n).trans ?_
  refine (shapeCast_a_a1_apply _ _ r 0).trans ?_
  exact laneSum_apply v31 _ _ r

/-- The scaled scores of the tile's query rows against the stored key rows, as the body spells them. -/
theorem scores_apply (v18 : FVec Ideal S512x64 .f32) (v28 : Vec Ideal S64x2048 .f32) (r : Fin 512) (n : Fin 2048) :
    mulf (matmul (F := Ideal) (φ₂ := .f32) dot_S512x64_S64x2048_S512x2048_1_0_0_1_n_n none v18 v28
          (constant (F := Ideal) S512x2048 .f32 0x00000000#32))
        (broadcast S512x2048 (Scalar.ofBits (F := Ideal) .f32 0x3E000000#32)) (ix2 r n)
      = Block.scoreT v18 v28 r n := by
  refine (mulf_apply _ _ _).trans ?_
  exact congrArg (· * Ideal.ofBits .f32 0x3E000000#32) (matmul_tile_apply v18 v28 r n)

/-- A row's scores shifted by the row maximum and exponentiated, as the body spells them: the maximum is folded from −∞
    over the lanes, taken once more against −∞, cast to a column and broadcast back along the lanes. The row is named
    `f` so that both the entry and the maximum are stated over it. -/
theorem expShift_apply (s : FVec Ideal S512x2048 .f32) (hφ : FKind.Formats .f32)
    (hacc : (0xFF800000#32 : BitVec 32) = FKind.maximumf.neutral .f32 hφ) (r : Fin 512)
    (f : Fin 2048 → EReal) (hf : ∀ n', s (ix2 r n') = f n') (n : Fin 2048) :
    exp (subf s (broadcastTo S512x2048 (shapeCast S512x1
          (maximumf (broadcast S512 (Scalar.ofBits (F := Ideal) .f32 0xFF800000#32))
            (multiReduction (F := Ideal) .maximumf [1] S512 s 0xFF800000#32 reduces_S512x2048_S512 hφ hacc))
          shapeCasts_S512_S512x1) broadcasts_S512x1_S512x2048)) (ix2 r n)
      = Ideal.exp (f n - Hedgehog.rowMax f) := by
  obtain rfl : (fun n' => s (ix2 r n')) = f := funext hf
  show Ideal.exp (s (ix2 r n) - _) = _
  refine congrArg (fun m => Ideal.exp (s (ix2 r n) - m)) ?_
  refine (broadcastTo_a1_ab_apply _ _ r n).trans ?_
  refine (shapeCast_a_a1_apply _ _ r 0).trans ?_
  refine (maximumf_apply _ _ _).trans ?_
  exact congrArg (max (Ideal.ofBits .f32 0xFF800000#32)) (laneMax_apply s hφ hacc r)

/-- The true attention block: the stable softmax over the keys of the tile's scaled scores. -/
theorem k0_pay2_apply (v18 : FVec Ideal S512x64 .f32) (v28 : Vec Ideal S64x2048 .f32) (r : Fin 512) (n : Fin 2048) :
    k0_pay2 (F := Ideal) v18 v28 (ix4 (0 : Fin 1) (0 : Fin 1) r n)
      = Hedgehog.softmaxRow (Block.scoreT v18 v28 r) n := by
  unfold k0_pay2 Hedgehog.softmaxRow Hedgehog.normalise
  refine (shapeCast_ab_11ab_apply _ _ 0 0 r n).trans ?_
  refine (divf_apply _ _ _).trans ?_
  refine congrArg₂ Ideal.div ?_ ?_
  · exact expShift_apply _ _ _ r (Block.scoreT v18 v28 r) (fun n' => scores_apply v18 v28 r n') n
  · refine (broadcastTo_a1_ab_apply _ _ r n).trans ?_
    refine (shapeCast_a_a1_apply _ _ r 0).trans ?_
    refine (laneSum_apply _ _ _ r).trans ?_
    exact Finset.sum_congr rfl fun n' _ =>
      expShift_apply _ _ _ r (Block.scoreT v18 v28 r) (fun n'' => scores_apply v18 v28 r n'') n'

end Cert.KernelIdeal.PayRead

end
-- ==== Proof.TileValue.lean ====
/-
  One output tile of the kernel is the specification's predicted and true attention.

  Fix a batch β, a head h and a query tile j (rows 512·j … 512·j + 511 of the 2048 positions). The body holds the block of
  all 2048 rows of x at (β, h), the tile's 512 rows, the four weights stored input-row first (the transposes of the
  specification's) and the four biases as one-row matrices. Under exactly these relations between the blocks and the
  argument arrays, the block the body stores first is, entry by entry, the predicted attention of the tile's rows and the
  block it stores second is their true attention.

  The steps: a linear layer on a block of rows is the projection of the rows the block holds (`lin_eq_proj`), applied
  once for the query and key rows and once more for their feature pre-activations; hence the feature product against the
  stored key features is `featDot` and the scaled scores against the stored key rows are `score`, as functions of the
  key position; and normalising a row, or taking its stable softmax, depends on the row only.
-/
import proofs.«163745_j81716047774352_2_alg».proof.Proof.PayRead
import proofs.«163745_j81716047774352_2_alg».proof.Proof.Spec

noncomputable section

namespace Cert.KernelIdeal.TileValue

open Cert.KernelIdeal Cert.KernelIdeal.Gen Cert.KernelIdeal.PayRead Idealize.ShloMosaic Idealize.ShloMosaic.ValueIdx Hedgehog

/-- Row `r` of query tile `j` among the 2048 positions: `512 · j + r`. -/
def qrow (j : Fin 4) (r : Fin 512) : Fin 2048 :=
  ⟨512 * j.val + r.val, by have := j.isLt; have := r.isLt; omega⟩

/-- A linear layer on a block is the projection of the rows the block holds: if row `r` of the block is row `ρ r` of `Y`
    at `(β, h)`, the block's weight is the transpose of `W` and its bias the one-row copy of `b`, then the layer's row `r`
    is row `ρ r` of `proj Y W b` at `(β, h)`. -/
theorem lin_eq_proj {R : Nat} (Yb : Fin R → Fin 64 → EReal) (Y : Rows) (β : Fin 2) (h : Fin 16) (ρ : Fin R → Fin 2048)
    (hY : ∀ (r : Fin R) (k : Fin 64), Yb r k = Y β h (ρ r) k)
    (Wt W : (⟨2, ![64, 64]⟩ : Shape).Idx → EReal) (hW : ∀ k e : Fin 64, Wt (ix2 k e) = W (ix2 e k))
    (b2 : (⟨2, ![1, 64]⟩ : Shape).Idx → EReal) (b : (⟨1, ![64]⟩ : Shape).Idx → EReal)
    (hb : ∀ (u : Fin 1) (e : Fin 64), b2 (ix2 u e) = b (ix1 e)) (r : Fin R) (e : Fin 64) :
    Block.lin Yb Wt b2 r e = proj Y W b β h (ρ r) e := by
  unfold Block.lin proj
  refine congrArg₂ (· + ·) (Finset.sum_congr rfl fun k _ => ?_) (hb 0 e)
  rw [hY r k, hW k e]

section Tile

variable (x : (⟨4, ![2, 16, 2048, 64]⟩ : Shape).Idx → EReal)
  (Wq Wk Wmq Wmk : (⟨2, ![64, 64]⟩ : Shape).Idx → EReal) (bq bk bmq bmk : (⟨1, ![64]⟩ : Shape).Idx → EReal)
  (β : Fin 2) (h : Fin 16) (j : Fin 4)
  (xf : Vec Ideal S1x2048x64 .f32) (xq : Vec Ideal S1x512x64 .f32)
  (WqT WkT WmqT WmkT : Vec Ideal S64x64 .f32) (bq2 bk2 bmq2 bmk2 : Vec Ideal S1x64 .f32)

/-- The block's key rows are the key projection of the rows of `x` at `(β, h)`. -/
theorem keyRows_eq (hxf : ∀ (n : Fin 2048) (k : Fin 64), xf (ix3 (0 : Fin 1) n k) = x (ix4 β h n k))
    (hWk : ∀ k e : Fin 64, WkT (ix2 k e) = Wk (ix2 e k)) (hbk : ∀ (u : Fin 1) (e : Fin 64), bk2 (ix2 u e) = bk (ix1 e))
    (n : Fin 2048) (e : Fin 64) :
    Block.lin (Block.blockRows xf) WkT bk2 n e = proj (rows x) Wk bk β h n e :=
  lin_eq_proj (Block.blockRows xf) (rows x) β h (fun n => n) (fun n k => hxf n k) WkT Wk hWk bk2 bk hbk n e

/-- The keys' feature pre-activations are the second projection of those rows. -/
theorem keyFeat_eq (hxf : ∀ (n : Fin 2048) (k : Fin 64), xf (ix3 (0 : Fin 1) n k) = x (ix4 β h n k))
    (hWk : ∀ k e : Fin 64, WkT (ix2 k e) = Wk (ix2 e k)) (hbk : ∀ (u : Fin 1) (e : Fin 64), bk2 (ix2 u e) = bk (ix1 e))
    (hWmk : ∀ k e : Fin 64, WmkT (ix2 k e) = Wmk (ix2 e k))
    (hbmk : ∀ (u : Fin 1) (e : Fin 64), bmk2 (ix2 u e) = bmk (ix1 e)) (n : Fin 2048) (e : Fin 64) :
    Block.lin (Block.lin (Block.blockRows xf) WkT bk2) WmkT bmk2 n e
      = proj (proj (rows x) Wk bk) Wmk bmk β h n e :=
  lin_eq_proj (Block.lin (Block.blockRows xf) WkT bk2) (proj (rows x) Wk bk) β h (fun n => n)
    (fun n k => keyRows_eq x Wk bk β h xf WkT bk2 hxf hWk hbk n k) WmkT Wmk hWmk bmk2 bmk hbmk n e

/-- The tile's query rows are the query projection of rows `512 · j + r` of `x` at `(β, h)`. -/
theorem queryRows_eq (hxq : ∀ (r : Fin 512) (k : Fin 64), xq (ix3 (0 : Fin 1) r k) = x (ix4 β h (qrow j r) k))
    (hWq : ∀ k e : Fin 64, WqT (ix2 k e) = Wq (ix2 e k)) (hbq : ∀ (u : Fin 1) (e : Fin 64), bq2 (ix2 u e) = bq (ix1 e))
    (r : Fin 512) (e : Fin 64) :
    Block.lin (Block.blockRows xq) WqT bq2 r e = proj (rows x) Wq bq β h (qrow j r) e :=
  lin_eq_proj (Block.blockRows xq) (rows x) β h (qrow j) (fun r k => hxq r k) WqT Wq hWq bq2 bq hbq r e

/-- The queries' feature pre-activations are the second projection of those rows. -/
theorem queryFeat_eq (hxq : ∀ (r : Fin 512) (k : Fin 64), xq (ix3 (0 : Fin 1) r k) = x (ix4 β h (qrow j r) k))
    (hWq : ∀ k e : Fin 64, WqT (ix2 k e) = Wq (ix2 e k)) (hbq : ∀ (u : Fin 1) (e : Fin 64), bq2 (ix2 u e) = bq (ix1 e))
    (hWmq : ∀ k e : Fin 64, WmqT (ix2 k e) = Wmq (ix2 e k))
    (hbmq : ∀ (u : Fin 1) (e : Fin 64), bmq2 (ix2 u e) = bmq (ix1 e)) (r : Fin 512) (e : Fin 64) :
    Block.lin (Block.lin (Block.blockRows xq) WqT bq2) WmqT bmq2 r e
      = proj (proj (rows x) Wq bq) Wmq bmq β h (qrow j r) e :=
  lin_eq_proj (Block.lin (Block.blockRows xq) WqT bq2) (proj (rows x) Wq bq) β h (qrow j)
    (fun r k => queryRows_eq x Wq bq β h j xq WqT bq2 hxq hWq hbq r k) WmqT Wmq hWmq bmq2 bmq hbmq r e

/-- THE PREDICTED ATTENTION OF A TILE: the first stored block, computed from the tile's feature product against the two
    stored key-feature arrays, is `pred` at the tile's rows. -/
theorem tile_pred (hxf : ∀ (n : Fin 2048) (k : Fin 64), xf (ix3 (0 : Fin 1) n k) = x (ix4 β h n k))
    (hxq : ∀ (r : Fin 512) (k : Fin 64), xq (ix3 (0 : Fin 1) r k) = x (ix4 β h (qrow j r) k))
    (hWq : ∀ k e : Fin 64, WqT (ix2 k e) = Wq (ix2 e k)) (hWk : ∀ k e : Fin 64, WkT (ix2 k e) = Wk (ix2 e k))
    (hWmq : ∀ k e : Fin 64, WmqT (ix2 k e) = Wmq (ix2 e k)) (hWmk : ∀ k e : Fin 64, WmkT (ix2 k e) = Wmk (ix2 e k))
    (hbq : ∀ (u : Fin 1) (e : Fin 64), bq2 (ix2 u e) = bq (ix1 e))
    (hbk : ∀ (u : Fin 1) (e : Fin 64), bk2 (ix2 u e) = bk (ix1 e))
    (hbmq : ∀ (u : Fin 1) (e : Fin 64), bmq2 (ix2 u e) = bmq (ix1 e))
    (hbmk : ∀ (u : Fin 1) (e : Fin 64), bmk2 (ix2 u e) = bmk (ix1 e)) (r : Fin 512) (n : Fin 2048) :
    k0_pay1 (F := Ideal)
        (k0_pay9 (F := Ideal) xq WqT bq2 WmqT bmq2 (k0_pay6 (F := Ideal) xf WkT bk2 WmkT bmk2)
          (k0_pay7 (F := Ideal) xf WkT bk2 WmkT bmk2)) (ix4 (0 : Fin 1) (0 : Fin 1) r n)
      = Hedgehog.pred x Wq bq Wk bk Wmq bmq Wmk bmk β h (qrow j r) n := by
  refine (k0_pay1_apply _ r n).trans ?_
  unfold Hedgehog.pred
  refine congrArg (fun f => Hedgehog.normalise f n) (funext fun n' => ?_)
  refine (k0_pay9_apply xq WqT bq2 WmqT bmq2 _ _ r n').trans ?_
  unfold Block.featDotT Hedgehog.featDot
  have hMQ := queryFeat_eq x Wq Wmq bq bmq β h j xq WqT WmqT bq2 bmq2 hxq hWq hbq hWmq hbmq r
  have hMK := keyFeat_eq x Wk Wmk bk bmk β h xf WkT WmkT bk2 bmk2 hxf hWk hbk hWmk hbmk n'
  refine congrArg₂ (· + ·) (Finset.sum_congr rfl fun k _ => ?_) (Finset.sum_congr rfl fun k _ => ?_)
  · exact congrArg₂ (· * ·) (congrArg Ideal.exp (hMQ k))
      ((k0_pay6_apply xf WkT bk2 WmkT bmk2 k n').trans (congrArg Ideal.exp (hMK k)))
  · exact congrArg₂ (· * ·) (congrArg (fun y => Ideal.exp (-y)) (hMQ k))
      ((k0_pay7_apply xf WkT bk2 WmkT bmk2 k n').trans (congrArg (fun y => Ideal.exp (-y)) (hMK k)))

/-- THE TRUE ATTENTION OF A TILE: the second stored block, computed from the tile's query rows against the stored key
    rows, is `tru` at the tile's rows. -/
theorem tile_tru (hxf : ∀ (n : Fin 2048) (k : Fin 64), xf (ix3 (0 : Fin 1) n k) = x (ix4 β h n k))
    (hxq : ∀ (r : Fin 512) (k : Fin 64), xq (ix3 (0 : Fin 1) r k) = x (ix4 β h (qrow j r) k))
    (hWq : ∀ k e : Fin 64, WqT (ix2 k e) = Wq (ix2 e k)) (hWk : ∀ k e : Fin 64, WkT (ix2 k e) = Wk (ix2 e k))
    (hbq : ∀ (u : Fin 1) (e : Fin 64), bq2 (ix2 u e) = bq (ix1 e))
    (hbk : ∀ (u : Fin 1) (e : Fin 64), bk2 (ix2 u e) = bk (ix1 e)) (r : Fin 512) (n : Fin 2048) :
    k0_pay2 (F := Ideal) (k0_pay8 (F := Ideal) xq WqT bq2) (k0_pay5 (F := Ideal) xf WkT bk2)
        (ix4 (0 : Fin 1) (0 : Fin 1) r n)
      = Hedgehog.tru x Wq bq Wk bk β h (qrow j r) n := by
  refine (k0_pay2_apply _ _ r n).trans ?_
  unfold Hedgehog.tru
  refine congrArg (fun f => Hedgehog.softmaxRow f n) (funext fun n' => ?_)
  unfold Block.scoreT Hedgehog.score
  refine congrArg (· * Ideal.ofBits .f32 0x3E000000#32) (Finset.sum_congr rfl fun k _ => ?_)
  exact congrArg₂ (· * ·)
    ((k0_pay8_apply xq WqT bq2 r k).trans (queryRows_eq x Wq bq β h j xq WqT bq2 hxq hWq hbq r k))
    ((k0_pay5_apply xf WkT bk2 k n').trans (keyRows_eq x Wk bk β h xf WkT bk2 hxf hWk hbk n' k))

end Tile

end Cert.KernelIdeal.TileValue

end
-- ==== Proof.KernelValue.lean ====
/-
  The idealized kernel's result array.

  Point t = 4·i + j writes back the [2,1,512,2048] box of the region's output array [2,32,2048,2048] at (·, i, 512·j + ·, ·); the 128
  boxes tile the array.  By the values found for each point the box holds, in row s = 0, the predicted attention and, in row s = 1, the
  true attention of query rows 512·j … 512·j + 511 of the (batch, head) pair with 16·β + h = i, against all 2048 keys.  So the output
  array at (s, i, q, n) is the specification at (s, i / 16, i % 16, q, n), and the reshape to [2,2,16,2048,2048] after the region, which
  splits i back into (β, h), makes the result array the specification.
-/
import proofs.«163745_j81716047774352_2_alg».proof.Proof.PointValues
import proofs.«163745_j81716047774352_2_alg».proof.Proof.TileValue
import proofs.«163745_j81716047774352_2_alg».proof.Proof.Spec
import Idealize.ShloMosaic.Lib.Pipeline.Value
import Idealize.ShloMosaic.Lib.StableHlo.Run
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.KernelValue

open Cert.KernelIdeal Cert.KernelIdeal.Gen Cert.KernelIdeal.Pieces Cert.KernelIdeal.Arrays Cert.KernelIdeal.PointValues
open Cert.KernelIdeal.TileValue (qrow tile_pred tile_tru)

variable (m : (ℓ : Loc nD τ sig) → Buf (Elt Ideal) ℓ) (ρ : Dev nD → PrngReg)

/-- The specification by merged (batch, head) index i = 16·β + h. -/
def outM (c : Dev nD) (s : Fin 2) (i : Fin 32) (q n : Fin 2048) : EReal :=
  Hedgehog.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) s ⟨i.val / 16, by have := i.isLt; omega⟩ ⟨i.val % 16, by omega⟩ q n

/-- The region's output array [2,32,2048,2048] as the specification says it. -/
def arr9 (c : Dev nD) : S2x32x2048x2048.Idx → EReal := fun i => outM m c (i 0) (i 1) (i 2) (i 3)

theorem mod_lt (t : Fin cfg0.N) (r : ℕ) (hr : r < 512) : 512 * (t.val % 4) + r < 2048 := by omega

/-- The (batch, head) pair of a merged index. -/
def bOf (i : Fin 32) : Fin 2 := ⟨i.val / 16, by have := i.isLt; omega⟩
def hOf (i : Fin 32) : Fin 16 := ⟨i.val % 16, by omega⟩
theorem bh_bOf_hOf (i : Fin 32) : bh (bOf i) (hOf i) = i := Fin.ext (by show 16 * (i.val / 16) + i.val % 16 = i.val; omega)

/-- The slab of merged index i holds the rows of its (batch, head) pair. -/
theorem slab_apply (c : Dev nD) (i : Fin 32) (n : Fin 2048) (k : Fin 64) :
    slab m c i (ix3 (0 : Fin 1) n k) = (m ((c : Thread nD τ).loc main_arg0)) (ix4 (bOf i) (hOf i) n k) := by
  show (V m c main_v0 : S32x2048x64.Idx → Elt Ideal .f32) (ix3 i n k) = _
  rw [← V_v0_apply m c (bOf i) (hOf i) n k, bh_bOf_hOf]

/-- The query tile of point t holds rows 512·(t % 4) … of that slab. -/
theorem qtile_apply (c : Dev nD) (t : Fin cfg0.N) (i : Fin 32) (r : Fin 512) (k : Fin 64) :
    qtile (grid0.coords t) (slab m c i) (ix3 (0 : Fin 1) r k)
      = (m ((c : Thread nD τ).loc main_arg0)) (ix4 (bOf i) (hOf i) (qrow ⟨t.val % 4, by omega⟩ r) k) := by
  have ho := off1 t
  rw [← slab_apply m c i (qrow ⟨t.val % 4, by omega⟩ r) k]
  show slab m c i _ = slab m c i _
  refine congrArg _ (funext fun a => Fin.ext ?_)
  match a with
  | ⟨0, _⟩ => show k0_off1 (grid0.coords t) 0 + 1 * 0 = 0; rw [ho.1]
  | ⟨1, _⟩ => show k0_off1 (grid0.coords t) 1 + 1 * r.val = 512 * (t.val % 4) + r.val; rw [ho.2.1]; omega
  | ⟨2, _⟩ => show k0_off1 (grid0.coords t) 2 + 1 * k.val = k.val; rw [ho.2.2]; omega

/-- The two stores of a block, read at an index: row 1 is the second store's payload, row 0 the first's. -/
theorem canon2_apply (w1 w0 : S1x1x512x2048.Idx → EReal) (y : S2x1x512x2048.Idx) (r : Fin 512) (n : Fin 2048)
    (hr : r.val = (y 2).val) (hn : n.val = (y 3).val) :
    View.canon (Val := Elt Ideal) (e := .f32)
        [⟨Rect.unit (s := S2x1x512x2048) ![1, 0, 0, 0] S1x1x512x2048.size inb_S2x1x512x2048_S1x1x512x2048_1_0_0_0, w1⟩,
          ⟨Rect.unit (s := S2x1x512x2048) ![0, 0, 0, 0] S1x1x512x2048.size inb_S2x1x512x2048_S1x1x512x2048_0_0_0_0, w0⟩] y
      = if (y 0).val = 1 then w1 (ix4 (0 : Fin 1) (0 : Fin 1) r n) else w0 (ix4 (0 : Fin 1) (0 : Fin 1) r n) := by
  have h0 : (y 0).val < 2 := (y 0).isLt
  have h1 : (y 1).val < 1 := (y 1).isLt
  by_cases hs : (y 0).val = 1
  · rw [if_pos hs]
    have hy : y = (Rect.unit (s := S2x1x512x2048) ![1, 0, 0, 0] S1x1x512x2048.size inb_S2x1x512x2048_S1x1x512x2048_1_0_0_0).emb (ix4 (0 : Fin 1) (0 : Fin 1) r n) := by
      funext a; apply Fin.ext
      match a with
      | ⟨0, _⟩ => show (y 0).val = 1 + 1 * 0; omega
      | ⟨1, _⟩ => show (y 1).val = 0 + 1 * 0; omega
      | ⟨2, _⟩ => show (y 2).val = 0 + 1 * r.val; omega
      | ⟨3, _⟩ => show (y 3).val = 0 + 1 * n.val; omega
    rw [hy, View.canon_cons_emb]
  · rw [if_neg hs]
    have hnot : y ∉ (Rect.unit (s := S2x1x512x2048) ![1, 0, 0, 0] S1x1x512x2048.size inb_S2x1x512x2048_S1x1x512x2048_1_0_0_0).set := by
      rw [Rect.mem_set_unit]
      intro hall
      have h' : 1 ≤ (y 0).val := (hall 0).1
      omega
    have hy : y = (Rect.unit (s := S2x1x512x2048) ![0, 0, 0, 0] S1x1x512x2048.size inb_S2x1x512x2048_S1x1x512x2048_0_0_0_0).emb (ix4 (0 : Fin 1) (0 : Fin 1) r n) := by
      funext a; apply Fin.ext
      match a with
      | ⟨0, _⟩ => show (y 0).val = 0 + 1 * 0; omega
      | ⟨1, _⟩ => show (y 1).val = 0 + 1 * 0; omega
      | ⟨2, _⟩ => show (y 2).val = 0 + 1 * r.val; omega
      | ⟨3, _⟩ => show (y 3).val = 0 + 1 * n.val; omega
    rw [View.canon_cons_of_not_mem (Val := Elt Ideal)
      (⟨Rect.unit (s := S2x1x512x2048) ![1, 0, 0, 0] S1x1x512x2048.size inb_S2x1x512x2048_S1x1x512x2048_1_0_0_0, w1⟩ : View.Piece (Elt Ideal) S2x1x512x2048 .f32)
      [⟨Rect.unit (s := S2x1x512x2048) ![0, 0, 0, 0] S1x1x512x2048.size inb_S2x1x512x2048_S1x1x512x2048_0_0_0_0, w0⟩] hnot]
    rw [hy, View.canon_cons_emb]

/-- One point's output block, entry by entry. -/
theorem tile_apply (c : Dev nD) (t : Fin cfg0.N) (y : S2x1x512x2048.Idx) :
    outTile (grid0.coords t) (slab m c ⟨t.val / 4, t_div_lt t⟩) (V m c main_v1) (V m c main_v5) (V m c main_v3) (V m c main_v7)
        (keyT m c ⟨t.val / 4, t_div_lt t⟩) (expT m c ⟨t.val / 4, t_div_lt t⟩) (expNegT m c ⟨t.val / 4, t_div_lt t⟩) y
      = outM m c ⟨(y 0).val, (y 0).isLt⟩ ⟨t.val / 4, t_div_lt t⟩ ⟨512 * (t.val % 4) + (y 2).val, mod_lt t _ (y 2).isLt⟩ ⟨(y 3).val, (y 3).isLt⟩ := by
  have h0 : (y 0).val < 2 := (y 0).isLt
  have h2 : (y 2).val < 512 := (y 2).isLt
  have h3 : (y 3).val < 2048 := (y 3).isLt
  generalize (⟨t.val / 4, t_div_lt t⟩ : Fin 32) = i
  have hxf := slab_apply m c i
  have hxq := qtile_apply m c t i
  unfold outTile keyT expT expNegT
  rw [canon2_apply _ _ y ⟨(y 2).val, h2⟩ ⟨(y 3).val, h3⟩ rfl rfl]
  by_cases hs : (y 0).val = 1
  · rw [if_pos hs]
    rw [tile_tru (m ((c : Thread nD τ).loc main_arg0)) (m ((c : Thread nD τ).loc main_arg1)) (m ((c : Thread nD τ).loc main_arg3)) (m ((c : Thread nD τ).loc main_arg2)) (m ((c : Thread nD τ).loc main_arg4)) (bOf i) (hOf i) ⟨t.val % 4, by omega⟩ (slab m c i)
      (qtile (grid0.coords t) (slab m c i)) (V m c main_v1) (V m c main_v2) (V m c main_v5) (V m c main_v6)
      hxf hxq (V_v1_apply m c) (V_v2_apply m c) (V_v5_apply m c) (V_v6_apply m c) ⟨(y 2).val, h2⟩ ⟨(y 3).val, h3⟩]
    unfold outM Hedgehog.out
    rw [if_neg (by show ¬(y 0).val = 0; omega)]
    rfl
  · rw [if_neg hs]
    rw [tile_pred (m ((c : Thread nD τ).loc main_arg0)) (m ((c : Thread nD τ).loc main_arg1)) (m ((c : Thread nD τ).loc main_arg3)) (m ((c : Thread nD τ).loc main_arg5)) (m ((c : Thread nD τ).loc main_arg7)) (m ((c : Thread nD τ).loc main_arg2)) (m ((c : Thread nD τ).loc main_arg4)) (m ((c : Thread nD τ).loc main_arg6)) (m ((c : Thread nD τ).loc main_arg8)) (bOf i) (hOf i) ⟨t.val % 4, by omega⟩ (slab m c i)
      (qtile (grid0.coords t) (slab m c i)) (V m c main_v1) (V m c main_v2) (V m c main_v3) (V m c main_v4)
      (V m c main_v5) (V m c main_v6) (V m c main_v7) (V m c main_v8)
      hxf hxq (V_v1_apply m c) (V_v2_apply m c) (V_v3_apply m c) (V_v4_apply m c)
      (V_v5_apply m c) (V_v6_apply m c) (V_v7_apply m c) (V_v8_apply m c) ⟨(y 2).val, h2⟩ ⟨(y 3).val, h3⟩]
    unfold outM Hedgehog.out
    rw [if_pos (by show (y 0).val = 0; omega)]
    rfl

/-- What point t writes back is its box of the array. -/
theorem flushed_eq (c : Dev nD) (t : Fin cfg0.N) :
    (dats m 0 c).flushed 9 t = ((cfg0.win 9).blk t).view.read (Elt Ideal) (arr9 m c) := by
  show (cfg0.win 9).cut (grid0.coords t) ((dats m 0 c).after 9 t) = _
  rw [after0_9, out_eq]
  have hi := idx9 t
  funext y
  rw [View.read_apply]
  refine (tile_apply m c t y).trans ?_
  have h0 : (y 0).val < 2 := (y 0).isLt
  have h1 : (y 1).val < 1 := (y 1).isLt
  have h2 : (y 2).val < 512 := (y 2).isLt
  have h3 : (y 3).val < 2048 := (y 3).isLt
  show _ = outM m c _ _ _ _
  congr 1
  · exact Fin.ext (by show (y 0).val = win0_9.index t 0 * 2 + 1 * (y 0).val; rw [hi.1]; omega)
  · exact Fin.ext (by show t.val / 4 = win0_9.index t 1 * 1 + 1 * (y 1).val; rw [hi.2.1]; omega)
  · exact Fin.ext (by show 512 * (t.val % 4) + (y 2).val = win0_9.index t 2 * 512 + 1 * (y 2).val; rw [hi.2.2.1]; omega)
  · exact Fin.ext (by show (y 3).val = win0_9.index t 3 * 2048 + 1 * (y 3).val; rw [hi.2.2.2]; omega)

/-- An index of the array is in point t's box iff each coordinate is in the box's range. -/
theorem mem_blk (t : Fin cfg0.N) (i : S2x32x2048x2048.Idx) :
    i ∈ ((cfg0.win 9).blk t).view.set ↔ ∀ a : Fin 4, win0_9.index t a * S2x1x512x2048.size a ≤ (i a).val ∧ (i a).val < win0_9.index t a * S2x1x512x2048.size a + S2x1x512x2048.size a := by
  show i ∈ ((View.whole main_v9).slice (win0_9.rect t)).set ↔ _
  rw [View.set_slice_whole, Rect.mem_set_unit]
  exact Iff.rfl

/-- Every index of the array is in some point's box: (s, i, q, n) in the box of point 4·i + q / 512. -/
theorem cover (i : S2x32x2048x2048.Idx) : ∃ t : Fin cfg0.N, (cfg0.win 9).flush t = true ∧ i ∈ ((cfg0.win 9).blk t).view.set := by
  have h0 : (i 0).val < 2 := (i 0).isLt
  have h1 : (i 1).val < 32 := (i 1).isLt
  have h2 : (i 2).val < 2048 := (i 2).isLt
  have h3 : (i 3).val < 2048 := (i 3).isLt
  have hN : cfg0.N = 128 := N_0
  refine ⟨⟨4 * (i 1).val + (i 2).val / 512, by omega⟩, flush0_9 _, ?_⟩
  rw [mem_blk]
  have hi := idx9 ⟨4 * (i 1).val + (i 2).val / 512, by omega⟩
  intro a
  match a with
  | ⟨0, _⟩ => show win0_9.index _ 0 * 2 ≤ (i 0).val ∧ (i 0).val < win0_9.index _ 0 * 2 + 2; rw [hi.1]; omega
  | ⟨1, _⟩ => show win0_9.index _ 1 * 1 ≤ (i 1).val ∧ (i 1).val < win0_9.index _ 1 * 1 + 1; rw [hi.2.1]; dsimp only; omega
  | ⟨2, _⟩ => show win0_9.index _ 2 * 512 ≤ (i 2).val ∧ (i 2).val < win0_9.index _ 2 * 512 + 512; rw [hi.2.2.1]; dsimp only; omega
  | ⟨3, _⟩ => show win0_9.index _ 3 * 2048 ≤ (i 3).val ∧ (i 3).val < win0_9.index _ 3 * 2048 + 2048; rw [hi.2.2.2]; omega

/-- So the region's output array ends as the specification says. -/
theorem final9 (c : Dev nD) : (dats m 0 c).arrAt 9 cfg0.N = arr9 m c :=
  (dats m 0 c).arrAt_eq_of_cover 9 (arr9 m c) (fun t _ => flushed_eq m c t) (cover)

/-- The reshape after the region splits the merged index: the result array is the specification. -/
theorem tail_eq (c : Dev nD) :
    Pipeline.afterTail₀ cfgs (dats m) 0 (V0 m) [hostOps1] c main_v10
      = Hedgehog.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  unfold Pipeline.afterTail₀
  show StableHlo.after hostOps1 _ (Proc.devRef .tc main_v10) = _
  after_results
  funext i
  obtain ⟨s, β, h, q, n, rfl⟩ : ∃ (s : Fin 2) (β : Fin 2) (h : Fin 16) (q n : Fin 2048), i = ix5 s β h q n :=
    ⟨i 0, i 1, i 2, i 3, i 4, eq_ix5 i⟩
  show shapeCast S2x2x16x2048x2048 (Pipeline.withArrays (cfgs 0).spec c (V0 m c) (fun w => (dats m 0 c).arrAt w (cfgs 0).N)
      (Proc.devRef .tc main_v9)) shapeCasts_S2x32x2048x2048_S2x2x16x2048x2048 (ix5 s β h q n) = _
  rw [shapeCast_apply _ _ _ (ix4 s (bh β h) q n) (by
    show (S2x32x2048x2048.rowMajor (ix4 s (bh β h) q n)).val = (S2x2x16x2048x2048.rowMajor (ix5 s β h q n)).val
    rw [Shape.rowMajor_val_four, Shape.rowMajor_val_five]
    show ((s.val * 32 + (16 * β.val + h.val)) * 2048 + q.val) * 2048 + n.val
      = (((s.val * 2 + β.val) * 16 + h.val) * 2048 + q.val) * 2048 + n.val
    omega)]
  refine (congrFun ((Pipeline.withArrays_arr spec0 launch0.win.arr_inj c _ _ 9).trans (final9 m c)) _).trans ?_
  show outM m c s (bh β h) q n = Hedgehog.out _ _ _ _ _ _ _ _ _ s β h q n
  unfold outM
  have e1 : ∀ p, (⟨(bh β h).val / 16, p⟩ : Fin 2) = β := fun p => Fin.ext (by show (16 * β.val + h.val) / 16 = β.val; have := h.isLt; omega)
  have e2 : ∀ p, (⟨(bh β h).val % 16, p⟩ : Fin 16) = h := fun p => Fin.ext (by show (16 * β.val + h.val) % 16 = h.val; have := h.isLt; omega)
  rw [e1, e2]

/-- The idealized kernel's run, read: the result array at the specification, the arguments unchanged. -/
theorem run : θ_run defs (onTc (τ := τ) (main (F := Ideal))) ⟨m, fun _ => 0, ρ⟩ (fun r => ∀ c : Dev nD,
      r.2.mem ((c.tc : Thread nD τ).loc main_v10) = Hedgehog.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_v10 (Pipeline.mem_restRefs_of main_v10 (by decide) (by decide))).trans (tail_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c))⟩) (run_main m ρ)

end Cert.KernelIdeal.KernelValue

end
-- ==== Proof.RefLaws.lean ====
/-
  Facts about the extended reals and about array indices that the reading of the reference uses; none of them mentions a program.

  * The scale law: 64 is a perfect square, so dividing by its square root is dividing by the real 8, and division by a nonzero
    real is multiplication by its reciprocal on EVERY extended real (the infinities included), hence y / √64 = y · (1/8).
  * A sum over 128 terms is the sum over the first 64 plus the sum over the last 64.
  * A two-piece concatenation read at an index: along the last axis (64 + 64 features) a coordinate k < 64 reads the first piece at k
    and a coordinate 64 + k reads the second piece at k; along the first axis (1 + 1) coordinate 0 reads the first piece and
    coordinate 1 the second, both at first coordinate 0.
  * A maximum-reduce over the key axis, read at (β, h, m), is the fold of max over the 2048 keys of row (β, h, m).
-/
import proofs.«163745_j81716047774352_2_alg».proof.Proof.Spec
import Idealize.ShloMosaic.Lib.Pipeline.Value
import Idealize.ShloMosaic.Lib.ValueIdx
import Idealize.ShloMosaic.PureOps.Ideal.Laws

noncomputable section

namespace Cert.RefLaws

open Idealize.ShloMosaic Idealize.ShloMosaic.ValueIdx Idealize.ShloMosaic.StableHlo

/-! ## The scale -/

/-- The word 0x42800000 denotes the real 64 (sign 0, exponent 133 = 127 + 6, fraction 0). -/
theorem ofBits_64 : Ideal.ofBits .f32 0x42800000#32 = ((64 : ℝ) : EReal) := by
  simp [Ideal.ofBits, Ideal.ieee, -EReal.coe_mul]; norm_num

/-- The word 0x3E000000 denotes the real 1/8 (sign 0, exponent 124 = 127 − 3, fraction 0). -/
theorem ofBits_eighth : Ideal.ofBits .f32 0x3E000000#32 = ((1 / 8 : ℝ) : EReal) := by
  simp [Ideal.ofBits, Ideal.ieee, -EReal.coe_mul]; norm_num

/-- Dividing by the square root of 64 is multiplying by 1/8, on every extended real: √64 = 8 is a nonzero real, and x / 8 = x · (1/8)
    holds at ±∞ and at the junk value as well as at the reals. -/
theorem div_sqrt_64 (y : EReal) :
    Ideal.div y (Ideal.sqrt (Ideal.ofBits .f32 0x42800000#32)) = y * Ideal.ofBits .f32 0x3E000000#32 := by
  have h8 : Real.sqrt 64 = 8 := by
    rw [show (64 : ℝ) = 8 ^ 2 by norm_num]; exact Real.sqrt_sq (by norm_num)
  rw [ofBits_64, ofBits_eighth, Ideal.sqrt_coe, if_neg (by norm_num), h8]
  exact Ideal.div_coe (by norm_num) y

/-! ## A sum over 64 + 64 terms -/

/-- A sum over 128 terms is the sum over the first 64 plus the sum over the last 64. -/
theorem sum_fin128 {M : Type*} [AddCommMonoid M] (f : Fin 128 → M) :
    ∑ k : Fin 128, f k = (∑ k : Fin 64, f ⟨k.val, by omega⟩) + ∑ k : Fin 64, f ⟨64 + k.val, by omega⟩ :=
  Fin.sum_univ_add (a := 64) (b := 64) f

/-! ## Two pieces joined along the feature axis -/

/-- A feature coordinate below 64 reads the first piece at the same coordinates. -/
theorem concat_last_left {α : Type} (x₁ x₂ : (⟨4, ![2, 16, 2048, 64]⟩ : Shape).Idx → α)
    (h : Shape.Concatenates [(⟨4, ![2, 16, 2048, 64]⟩ : Shape), (⟨4, ![2, 16, 2048, 64]⟩ : Shape)] (⟨4, ![2, 16, 2048, 128]⟩ : Shape) 3)
    (β : Fin 2) (hh : Fin 16) (n : Fin 2048) (k : Fin 64) :
    concatenate (⟨4, ![2, 16, 2048, 128]⟩ : Shape) 3 [⟨(⟨4, ![2, 16, 2048, 64]⟩ : Shape), x₁⟩, ⟨(⟨4, ![2, 16, 2048, 64]⟩ : Shape), x₂⟩] h
      (ix4 β hh n (⟨k.val, by omega⟩ : Fin 128)) = x₁ (ix4 β hh n k) :=
  concatenate_pair_apply_left 3 x₁ x₂ h _ rfl _ (fun b => by
    match b with
    | ⟨0, _⟩ => rfl
    | ⟨1, _⟩ => rfl
    | ⟨2, _⟩ => rfl
    | ⟨3, _⟩ => rfl)

/-- A feature coordinate 64 + k reads the second piece at feature k. -/
theorem concat_last_right {α : Type} (x₁ x₂ : (⟨4, ![2, 16, 2048, 64]⟩ : Shape).Idx → α)
    (h : Shape.Concatenates [(⟨4, ![2, 16, 2048, 64]⟩ : Shape), (⟨4, ![2, 16, 2048, 64]⟩ : Shape)] (⟨4, ![2, 16, 2048, 128]⟩ : Shape) 3)
    (β : Fin 2) (hh : Fin 16) (n : Fin 2048) (k : Fin 64) :
    concatenate (⟨4, ![2, 16, 2048, 128]⟩ : Shape) 3 [⟨(⟨4, ![2, 16, 2048, 64]⟩ : Shape), x₁⟩, ⟨(⟨4, ![2, 16, 2048, 64]⟩ : Shape), x₂⟩] h
      (ix4 β hh n (⟨64 + k.val, by omega⟩ : Fin 128)) = x₂ (ix4 β hh n k) :=
  concatenate_pair_apply_right 3 x₁ x₂ h _ rfl rfl _ (fun b hb => by
    match b with
    | ⟨0, _⟩ => rfl
    | ⟨1, _⟩ => rfl
    | ⟨2, _⟩ => rfl
    | ⟨3, _⟩ => exact absurd rfl hb) (by show k.val + 64 = 64 + k.val; omega)

/-! ## Two arrays stacked along a new leading axis -/

/-- Leading coordinate 0 reads the first array. -/
theorem concat_first_left {α : Type} (x₁ x₂ : (⟨5, ![1, 2, 16, 2048, 2048]⟩ : Shape).Idx → α)
    (h : Shape.Concatenates [(⟨5, ![1, 2, 16, 2048, 2048]⟩ : Shape), (⟨5, ![1, 2, 16, 2048, 2048]⟩ : Shape)] (⟨5, ![2, 2, 16, 2048, 2048]⟩ : Shape) 0)
    (β : Fin 2) (hh : Fin 16) (m n : Fin 2048) :
    concatenate (⟨5, ![2, 2, 16, 2048, 2048]⟩ : Shape) 0 [⟨(⟨5, ![1, 2, 16, 2048, 2048]⟩ : Shape), x₁⟩, ⟨(⟨5, ![1, 2, 16, 2048, 2048]⟩ : Shape), x₂⟩] h
      (ix5 (0 : Fin 2) β hh m n) = x₁ (ix5 (0 : Fin 1) β hh m n) :=
  concatenate_pair_apply_left 0 x₁ x₂ h _ rfl _ (fun b => by
    match b with
    | ⟨0, _⟩ => rfl
    | ⟨1, _⟩ => rfl
    | ⟨2, _⟩ => rfl
    | ⟨3, _⟩ => rfl
    | ⟨4, _⟩ => rfl)

/-- Leading coordinate 1 reads the second array. -/
theorem concat_first_right {α : Type} (x₁ x₂ : (⟨5, ![1, 2, 16, 2048, 2048]⟩ : Shape).Idx → α)
    (h : Shape.Concatenates [(⟨5, ![1, 2, 16, 2048, 2048]⟩ : Shape), (⟨5, ![1, 2, 16, 2048, 2048]⟩ : Shape)] (⟨5, ![2, 2, 16, 2048, 2048]⟩ : Shape) 0)
    (β : Fin 2) (hh : Fin 16) (m n : Fin 2048) :
    concatenate (⟨5, ![2, 2, 16, 2048, 2048]⟩ : Shape) 0 [⟨(⟨5, ![1, 2, 16, 2048, 2048]⟩ : Shape), x₁⟩, ⟨(⟨5, ![1, 2, 16, 2048, 2048]⟩ : Shape), x₂⟩] h
      (ix5 (1 : Fin 2) β hh m n) = x₂ (ix5 (0 : Fin 1) β hh m n) :=
  concatenate_pair_apply_right 0 x₁ x₂ h _ rfl rfl _ (fun b hb => by
    match b with
    | ⟨0, _⟩ => exact absurd rfl hb
    | ⟨1, _⟩ => rfl
    | ⟨2, _⟩ => rfl
    | ⟨3, _⟩ => rfl
    | ⟨4, _⟩ => rfl) rfl

/-! ## The maximum over the keys of one row -/

/-- Dropping the key axis of [2,16,2048,2048] leaves [2,16,2048]. -/
theorem reduces_row : (⟨4, ![2, 16, 2048, 2048]⟩ : Shape).Reduces [3] (⟨3, ![2, 16, 2048]⟩ : Shape) := by decide

/-- The row index (β, h, m) with key coordinate k put back is (β, h, m, k). -/
theorem lift_row (h : (⟨4, ![2, 16, 2048, 2048]⟩ : Shape).Reduces [3] (⟨3, ![2, 16, 2048]⟩ : Shape))
    (β : Fin 2) (hh : Fin 16) (m : Fin 2048) (k : Fin ((⟨4, ![2, 16, 2048, 2048]⟩ : Shape).size 3)) :
    h.lift (ix3 β hh m) k = ix4 β hh m (⟨k.val, k.isLt⟩ : Fin 2048) := by
  funext c; apply Fin.ext
  match c with
  | ⟨0, _⟩ => rfl
  | ⟨1, _⟩ => rfl
  | ⟨2, _⟩ => rfl
  | ⟨3, _⟩ => rfl

/-- A reduce by maximum over the key axis, read at row (β, h, m): max is commutative and associative, so the reduce is the fold of
    max from the initial value over the 2048 entries of the row. -/
theorem hostReduce_max_row (x : (⟨4, ![2, 16, 2048, 2048]⟩ : Shape).Idx → EReal) (init : (⟨0, ![]⟩ : Shape).Idx → EReal)
    (h' : (⟨4, ![2, 16, 2048, 2048]⟩ : Shape).ReducesTo [3] (⟨3, ![2, 16, 2048]⟩ : Shape)) (hu : 0 < (⟨0, ![]⟩ : Shape).numel)
    (β : Fin 2) (hh : Fin 16) (m : Fin 2048) :
    Host.reduce (FloatOps.maximumf (F := Ideal) (φ := .f32)) x init h' hu (ix3 β hh m)
      = (Finset.univ : Finset (Fin 2048)).fold max (init ix0) (fun n => x (ix4 β hh m n)) := by
  rw [Host.reduce_eq_fold_single (FloatOps.maximumf (F := Ideal) (φ := .f32)) x init h' reduces_row hu]
  have hf : (x ∘ reduces_row.lift (ix3 β hh m)) = fun n : Fin 2048 => x (ix4 β hh m n) :=
    funext fun k => congrArg x (lift_row reduces_row β hh m k)
  have hi : init (Shape.Idx.first hu) = init ix0 := congrArg init (eq_ix0 _)
  rw [hi]
  exact congrArg (fun f => Finset.fold max (init ix0) f (Finset.univ : Finset (Fin 2048))) hf

end Cert.RefLaws

end
-- ==== Proof.RefRead.lean ====
/-
  The reference's result array is the specification, index by index.

  The reference computes, for x of shape [2,16,2048,64]: the query and key rows q0 = x·Wqᵀ + bq and k0 = x·Wkᵀ + bk (a contraction over
  the 64 features followed by a bias broadcast along the rows); their feature pre-activations mq = q0·Wmqᵀ + bmq and mk = k0·Wmkᵀ + bmk;
  the feature vectors (exp u, exp (−u)) of length 128, joined along the feature axis; their products contracted over the 128 features;
  the row normalisation of that product (a row sum from 0, broadcast back along the keys, and a division); the scores q0·k0ᵀ contracted
  over 64 features and divided by √64; the row maximum of the scores folded from −∞ and taken once more against −∞; the exponentials
  of the differences, their row sum from 0 and the division; and at last the two [2,16,2048,2048] arrays stacked along a new leading axis.

  Each step is read at explicit coordinates (β, h, n or m, e or k).  Every step is a re-indexing, except two:
  a sum over 128 joined features is the sum over the first 64 (the exp u half) plus the sum over the last 64 (the exp (−u) half),
  and dividing by √64 is multiplying by 1/8 on every extended real.  The two zero initial values of the row sums are the real 0.
  No finiteness of any entry is used.
-/
import proofs.«163745_j81716047774352_2_alg».proof.Defs
import proofs.«163745_j81716047774352_2_alg».proof.Proof.RefReadP
import proofs.«163745_j81716047774352_2_alg».proof.Proof.Spec
import proofs.«163745_j81716047774352_2_alg».proof.Proof.RefLaws
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.ReadP Idealize.ShloMosaic Idealize.ShloMosaic.ValueIdx
  Idealize.ShloMosaic.StableHlo Hedgehog Cert.RefLaws

/-- The input array's type. -/
abbrev ArrX : Type := (⟨S2x16x2048x64, .f32⟩ : BufTy).Contents (Elt Ideal)
/-- A weight matrix's type. -/
abbrev ArrW : Type := (⟨S64x64, .f32⟩ : BufTy).Contents (Elt Ideal)
/-- A bias vector's type. -/
abbrev ArrB : Type := (⟨S64, .f32⟩ : BufTy).Contents (Elt Ideal)

/-! ## The index maps at explicit coordinates

  A contraction over the last axis of the left operand reads it at (β, h, n, k) and the weight at (e, k); a bias broadcast reads the
  bias at (e); a product of two row arrays reads the left at (β, h, m, k) and the right at (β, h, n, k); a row reduction reads
  (β, h, m, k) for each key k; its broadcast back reads (β, h, m). -/

section Indices
variable (β : Fin 2) (h : Fin 16) (m n : Fin 2048) (e : Fin 64)

theorem lidx_v0 (k : Fin 64) : lidx_main_v0 (ix4 β h n e) k = ix4 β h n k := by
  funext a; match a with | ⟨0, _⟩ => rfl | ⟨1, _⟩ => rfl | ⟨2, _⟩ => rfl | ⟨3, _⟩ => rfl
theorem ridx_v0 (k : Fin 64) : ridx_main_v0 (ix4 β h n e) k = ix2 e k := by
  funext a; match a with | ⟨0, _⟩ => rfl | ⟨1, _⟩ => rfl
theorem bidx_v2 : idx_main_v1 (idx_main_v2 (ix4 β h n e)) = ix1 e := by
  funext a; match a with | ⟨0, _⟩ => rfl

theorem lidx_v4 (k : Fin 64) : lidx_main_v4 (ix4 β h n e) k = ix4 β h n k := by
  funext a; match a with | ⟨0, _⟩ => rfl | ⟨1, _⟩ => rfl | ⟨2, _⟩ => rfl | ⟨3, _⟩ => rfl
theorem ridx_v4 (k : Fin 64) : ridx_main_v4 (ix4 β h n e) k = ix2 e k := by
  funext a; match a with | ⟨0, _⟩ => rfl | ⟨1, _⟩ => rfl
theorem bidx_v6 : idx_main_v5 (idx_main_v6 (ix4 β h n e)) = ix1 e := by
  funext a; match a with | ⟨0, _⟩ => rfl

theorem lidx_v8 (k : Fin 64) : lidx_main_v8 (ix4 β h n e) k = ix4 β h n k := by
  funext a; match a with | ⟨0, _⟩ => rfl | ⟨1, _⟩ => rfl | ⟨2, _⟩ => rfl | ⟨3, _⟩ => rfl
theorem ridx_v8 (k : Fin 64) : ridx_main_v8 (ix4 β h n e) k = ix2 e k := by
  funext a; match a with | ⟨0, _⟩ => rfl | ⟨1, _⟩ => rfl
theorem bidx_v10 : idx_main_v9 (idx_main_v10 (ix4 β h n e)) = ix1 e := by
  funext a; match a with | ⟨0, _⟩ => rfl

theorem lidx_v16 (k : Fin 64) : lidx_main_v16 (ix4 β h n e) k = ix4 β h n k := by
  funext a; match a with | ⟨0, _⟩ => rfl | ⟨1, _⟩ => rfl | ⟨2, _⟩ => rfl | ⟨3, _⟩ => rfl
theorem ridx_v16 (k : Fin 64) : ridx_main_v16 (ix4 β h n e) k = ix2 e k := by
  funext a; match a with | ⟨0, _⟩ => rfl | ⟨1, _⟩ => rfl
theorem bidx_v18 : idx_main_v17 (idx_main_v18 (ix4 β h n e)) = ix1 e := by
  funext a; match a with | ⟨0, _⟩ => rfl

theorem lidx_v24 (k : Fin 128) : lidx_main_v24 (ix4 β h m n) k = ix4 β h m k := by
  funext a; match a with | ⟨0, _⟩ => rfl | ⟨1, _⟩ => rfl | ⟨2, _⟩ => rfl | ⟨3, _⟩ => rfl
theorem ridx_v24 (k : Fin 128) : ridx_main_v24 (ix4 β h m n) k = ix4 β h n k := by
  funext a; match a with | ⟨0, _⟩ => rfl | ⟨1, _⟩ => rfl | ⟨2, _⟩ => rfl | ⟨3, _⟩ => rfl
theorem idx_v25 (k : Fin 2048) : idx_main_v25 (ix3 β h m) k = ix4 β h m k := by
  funext a; match a with | ⟨0, _⟩ => rfl | ⟨1, _⟩ => rfl | ⟨2, _⟩ => rfl | ⟨3, _⟩ => rfl
theorem idx_v27 : idx_main_v26 (idx_main_v27 (ix4 β h m n)) = ix3 β h m := by
  funext a; match a with | ⟨0, _⟩ => rfl | ⟨1, _⟩ => rfl | ⟨2, _⟩ => rfl

theorem lidx_v29 (k : Fin 64) : lidx_main_v29 (ix4 β h m n) k = ix4 β h m k := by
  funext a; match a with | ⟨0, _⟩ => rfl | ⟨1, _⟩ => rfl | ⟨2, _⟩ => rfl | ⟨3, _⟩ => rfl
theorem ridx_v29 (k : Fin 64) : ridx_main_v29 (ix4 β h m n) k = ix4 β h n k := by
  funext a; match a with | ⟨0, _⟩ => rfl | ⟨1, _⟩ => rfl | ⟨2, _⟩ => rfl | ⟨3, _⟩ => rfl
theorem idx_v37 : idx_main_v36 (idx_main_v37 (ix4 β h m n)) = ix3 β h m := by
  funext a; match a with | ⟨0, _⟩ => rfl | ⟨1, _⟩ => rfl | ⟨2, _⟩ => rfl
theorem idx_v40 (k : Fin 2048) : idx_main_v40 (ix3 β h m) k = ix4 β h m k := by
  funext a; match a with | ⟨0, _⟩ => rfl | ⟨1, _⟩ => rfl | ⟨2, _⟩ => rfl | ⟨3, _⟩ => rfl
theorem idx_v42 : idx_main_v41 (idx_main_v42 (ix4 β h m n)) = ix3 β h m := by
  funext a; match a with | ⟨0, _⟩ => rfl | ⟨1, _⟩ => rfl | ⟨2, _⟩ => rfl
theorem idx_v44 : idx_main_v44 (ix5 (0 : Fin 1) β h m n) = ix4 β h m n := by
  funext a; match a with | ⟨0, _⟩ => rfl | ⟨1, _⟩ => rfl | ⟨2, _⟩ => rfl | ⟨3, _⟩ => rfl
theorem idx_v45 : idx_main_v45 (ix5 (0 : Fin 1) β h m n) = ix4 β h m n := by
  funext a; match a with | ⟨0, _⟩ => rfl | ⟨1, _⟩ => rfl | ⟨2, _⟩ => rfl | ⟨3, _⟩ => rfl

end Indices

/-- The zero word is the real 0, in the form the reduce's initial value has it. -/
theorem zero_word : (FloatOps.ofBits .f32 0x00000000#32 : Ideal .f32) = 0 := Ideal.ofBits_zero_f32

section Values
variable (x0 : ArrX) (x1 : ArrW) (x2 : ArrB) (x3 : ArrW) (x4 : ArrB) (x5 : ArrW) (x6 : ArrB) (x7 : ArrW) (x8 : ArrB)
variable (β : Fin 2) (h : Fin 16) (m n : Fin 2048) (e : Fin 64)

/-! ## The four linear layers -/

/-- The query rows: x contracted with Wq over the features, plus the bias bq. -/
theorem q0_eq : val_main_v3 (F := Ideal) x0 x1 x2 (ix4 β h n e) = proj (rows x0) x1 x2 β h n e := by
  rw [val_main_v3_apply, val_main_v0_apply, val_main_v2_apply, val_main_v1_apply, bidx_v2]
  simp only [lidx_v0, ridx_v0]
  rfl

/-- The key rows: x contracted with Wk over the features, plus the bias bk. -/
theorem k0_eq : val_main_v7 (F := Ideal) x0 x3 x4 (ix4 β h n e) = proj (rows x0) x3 x4 β h n e := by
  rw [val_main_v7_apply, val_main_v4_apply, val_main_v6_apply, val_main_v5_apply, bidx_v6]
  simp only [lidx_v4, ridx_v4]
  rfl

/-- The query feature pre-activations: the query rows through the second layer. -/
theorem mq_eq : val_main_v11 (F := Ideal) x0 x1 x2 x5 x6 (ix4 β h n e) = proj (proj (rows x0) x1 x2) x5 x6 β h n e := by
  rw [val_main_v11_apply, val_main_v8_apply, val_main_v10_apply, val_main_v9_apply, bidx_v10]
  simp only [lidx_v8, ridx_v8, q0_eq]
  rfl

/-- The key feature pre-activations: the key rows through the second layer. -/
theorem mk_eq : val_main_v19 (F := Ideal) x0 x3 x4 x7 x8 (ix4 β h n e) = proj (proj (rows x0) x3 x4) x7 x8 β h n e := by
  rw [val_main_v19_apply, val_main_v16_apply, val_main_v18_apply, val_main_v17_apply, bidx_v18]
  simp only [lidx_v16, ridx_v16, k0_eq]
  rfl

/-! ## The feature vectors: (exp u, exp (−u)), joined along the feature axis -/

/-- exp of the query pre-activation. -/
theorem fq_pos : val_main_v12 (F := Ideal) x0 x1 x2 x5 x6 (ix4 β h n e)
    = Ideal.exp (proj (proj (rows x0) x1 x2) x5 x6 β h n e) := by
  rw [val_main_v12_apply, mq_eq]; rfl

/-- exp of the negated query pre-activation. -/
theorem fq_neg : val_main_v14 (F := Ideal) x0 x1 x2 x5 x6 (ix4 β h n e)
    = Ideal.exp (-(proj (proj (rows x0) x1 x2) x5 x6 β h n e)) := by
  rw [val_main_v14_apply, val_main_v13_apply, mq_eq]; rfl

/-- exp of the key pre-activation. -/
theorem fk_pos : val_main_v20 (F := Ideal) x0 x3 x4 x7 x8 (ix4 β h n e)
    = Ideal.exp (proj (proj (rows x0) x3 x4) x7 x8 β h n e) := by
  rw [val_main_v20_apply, mk_eq]; rfl

/-- exp of the negated key pre-activation. -/
theorem fk_neg : val_main_v22 (F := Ideal) x0 x3 x4 x7 x8 (ix4 β h n e)
    = Ideal.exp (-(proj (proj (rows x0) x3 x4) x7 x8 β h n e)) := by
  rw [val_main_v22_apply, val_main_v21_apply, mk_eq]; rfl

/-- The first 64 joined query features are the exp u half. -/
theorem featq_left : val_main_v15 (F := Ideal) x0 x1 x2 x5 x6 (ix4 β h n (⟨e.val, by omega⟩ : Fin 128))
    = Ideal.exp (proj (proj (rows x0) x1 x2) x5 x6 β h n e) := by
  unfold val_main_v15
  exact (concat_last_left _ _ _ β h n e).trans (fq_pos x0 x1 x2 x5 x6 β h n e)

/-- The last 64 joined query features are the exp (−u) half. -/
theorem featq_right : val_main_v15 (F := Ideal) x0 x1 x2 x5 x6 (ix4 β h n (⟨64 + e.val, by omega⟩ : Fin 128))
    = Ideal.exp (-(proj (proj (rows x0) x1 x2) x5 x6 β h n e)) := by
  unfold val_main_v15
  exact (concat_last_right _ _ _ β h n e).trans (fq_neg x0 x1 x2 x5 x6 β h n e)

/-- The first 64 joined key features are the exp u half. -/
theorem featk_left : val_main_v23 (F := Ideal) x0 x3 x4 x7 x8 (ix4 β h n (⟨e.val, by omega⟩ : Fin 128))
    = Ideal.exp (proj (proj (rows x0) x3 x4) x7 x8 β h n e) := by
  unfold val_main_v23
  exact (concat_last_left _ _ _ β h n e).trans (fk_pos x0 x3 x4 x7 x8 β h n e)

/-- The last 64 joined key features are the exp (−u) half. -/
theorem featk_right : val_main_v23 (F := Ideal) x0 x3 x4 x7 x8 (ix4 β h n (⟨64 + e.val, by omega⟩ : Fin 128))
    = Ideal.exp (-(proj (proj (rows x0) x3 x4) x7 x8 β h n e)) := by
  unfold val_main_v23
  exact (concat_last_right _ _ _ β h n e).trans (fk_neg x0 x3 x4 x7 x8 β h n e)

/-! ## The predicted attention -/

/-- The feature product: the contraction over the 128 joined features splits into the exp u half and the exp (−u) half. -/
theorem featDot_eq : val_main_v24 (F := Ideal) x0 x1 x2 x3 x4 x5 x6 x7 x8 (ix4 β h m n)
    = featDot (proj (proj (rows x0) x1 x2) x5 x6) (proj (proj (rows x0) x3 x4) x7 x8) β h m n := by
  rw [val_main_v24_apply, sum_fin128]
  simp only [lidx_v24, ridx_v24, featq_left, featq_right, featk_left, featk_right]
  rfl

/-- The feature product normalised over the keys: the row sum starts from the real 0. -/
theorem pred_eq : val_main_v28 (F := Ideal) x0 x1 x2 x3 x4 x5 x6 x7 x8 (ix4 β h m n)
    = pred x0 x1 x2 x3 x4 x5 x6 x7 x8 β h m n := by
  rw [val_main_v28_apply, val_main_v27_apply, val_main_v26_apply, idx_v27, val_main_v25_apply, val_main_cst_apply, zero_word,
    zero_add]
  simp only [idx_v25, featDot_eq]
  rfl

/-! ## The true attention -/

/-- The scaled scores: the reference divides by √64 where the specification multiplies by 1/8. -/
theorem score_eq : val_main_v32 (F := Ideal) x0 x1 x2 x3 x4 (ix4 β h m n)
    = score (proj (rows x0) x1 x2) (proj (rows x0) x3 x4) β h m n := by
  rw [val_main_v32_apply, val_main_v29_apply, val_main_v31_apply, val_main_v30_apply, val_main_cst_0_apply]
  simp only [lidx_v29, ridx_v29, q0_eq, k0_eq]
  exact div_sqrt_64 _

/-- The row maximum: the reduce by maximum from −∞ over the keys, and once more against −∞. -/
theorem rowMax_eq : val_main_v35 (F := Ideal) x0 x1 x2 x3 x4 (ix3 β h m)
    = rowMax (score (proj (rows x0) x1 x2) (proj (rows x0) x3 x4) β h m) := by
  rw [val_main_v35_apply, val_main_v34_apply, val_main_cst_2_apply]
  unfold val_main_v33
  rw [hostReduce_max_row]
  simp only [score_eq]
  rfl

/-- exp of the score less the row maximum. -/
theorem expDiff_eq : val_main_v39 (F := Ideal) x0 x1 x2 x3 x4 (ix4 β h m n)
    = Ideal.exp (score (proj (rows x0) x1 x2) (proj (rows x0) x3 x4) β h m n
        - rowMax (score (proj (rows x0) x1 x2) (proj (rows x0) x3 x4) β h m)) := by
  rw [val_main_v39_apply, val_main_v38_apply, val_main_v37_apply, val_main_v36_apply, idx_v37, rowMax_eq, score_eq]
  rfl

/-- The stable softmax of the scores over the keys: the row sum starts from the real 0. -/
theorem tru_eq : val_main_v43 (F := Ideal) x0 x1 x2 x3 x4 (ix4 β h m n) = tru x0 x1 x2 x3 x4 β h m n := by
  rw [val_main_v43_apply, val_main_v42_apply, val_main_v41_apply, idx_v42, val_main_v40_apply, val_main_cst_3_apply, zero_word,
    zero_add]
  simp only [idx_v40, expDiff_eq]
  rfl

end Values

/-! ## The stacked result -/

/-- The reference's result array is the specification: leading coordinate 0 is the predicted attention, 1 the true one. -/
theorem ref_eq (x0 : (⟨S2x16x2048x64, .f32⟩ : BufTy).Contents (Elt Ideal)) (x1 : (⟨S64x64, .f32⟩ : BufTy).Contents (Elt Ideal))
    (x2 : (⟨S64, .f32⟩ : BufTy).Contents (Elt Ideal)) (x3 : (⟨S64x64, .f32⟩ : BufTy).Contents (Elt Ideal))
    (x4 : (⟨S64, .f32⟩ : BufTy).Contents (Elt Ideal)) (x5 : (⟨S64x64, .f32⟩ : BufTy).Contents (Elt Ideal))
    (x6 : (⟨S64, .f32⟩ : BufTy).Contents (Elt Ideal)) (x7 : (⟨S64x64, .f32⟩ : BufTy).Contents (Elt Ideal))
    (x8 : (⟨S64, .f32⟩ : BufTy).Contents (Elt Ideal)) :
    val_main_v46 (F := Ideal) x0 x1 x2 x3 x4 x5 x6 x7 x8 = Hedgehog.G x0 x1 x2 x3 x4 x5 x6 x7 x8 := by
  funext i
  obtain ⟨s, β, h, m, n, rfl⟩ : ∃ (s : Fin 2) (β : Fin 2) (h : Fin 16) (m n : Fin 2048), i = ix5 s β h m n :=
    ⟨_, _, _, _, _, eq_ix5 i⟩
  unfold val_main_v46
  match s with
  | ⟨0, _⟩ =>
    refine (concat_first_left _ _ _ β h m n).trans ?_
    rw [val_main_v44_apply, idx_v44, pred_eq]
    rfl
  | ⟨1, _⟩ =>
    refine (concat_first_right _ _ _ β h m n).trans ?_
    rw [val_main_v45_apply, idx_v45, tru_eq]
    rfl

end Cert.ReferenceIdeal.RefValue

end
-- ==== Proof.RefRun.lean ====
/-
  What the reference's result buffer holds after its operations have run, as the composed value of the nine arguments.

  The operations are run in order from arbitrary contents V.  The line is cut in three: the operations up to and including the two
  joins of the feature vectors, the operations from the feature product to the two broadcasts into a leading unit axis, and the final
  stack.  Contents after a concatenation of lines are the contents after the second line from the contents after the first.
  After the first line the query rows, the key rows and the two joined feature arrays are their composed values of the arguments;
  from any contents holding those four values the second line leaves the predicted and the true attention, each under a leading unit
  axis; the last operation stacks the two.  A join of two pieces is a function of the two pieces, so equal pieces give equal joins.
-/
import proofs.«163745_j81716047774352_2_alg».proof.Proof.Gen.ReferenceIdeal
import proofs.«163745_j81716047774352_2_alg».proof.Proof.RefRunP
import proofs.«163745_j81716047774352_2_alg».proof.Proof.RefReadP
import Idealize.ShloMosaic.Lib.StableHlo.Run

noncomputable section

namespace Cert.ReferenceIdeal.RefValue

open Cert.ReferenceIdeal Cert.ReferenceIdeal.Gen Cert.ReferenceIdeal.ReadP Idealize.ShloMosaic Idealize.ShloMosaic.TcCoe Idealize.SL.Sem
  Idealize.ShloMosaic.StableHlo

variable {F : FTy → Type} [FloatOps F]

/-! ## Running two lines one after the other -/

/-- The contents after two lines run in order are the contents after the second from the contents after the first. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-! ## Equal pieces give equal joins -/

/-- Two feature arrays joined along the feature axis. -/
theorem cat128_congr {x x' y y' : (⟨S2x16x2048x64, .f32⟩ : BufTy).Contents (Elt F)} (hx : x = x') (hy : y = y')
    (h : Shape.Concatenates [S2x16x2048x64, S2x16x2048x64] S2x16x2048x128 3) :
    concatenate S2x16x2048x128 3 [⟨S2x16x2048x64, x⟩, ⟨S2x16x2048x64, y⟩] h
      = concatenate S2x16x2048x128 3 [⟨S2x16x2048x64, x'⟩, ⟨S2x16x2048x64, y'⟩] h := by
  subst hx; subst hy; rfl

/-- Two attention arrays stacked along the leading axis. -/
theorem cat2_congr {x x' y y' : (⟨S1x2x16x2048x2048, .f32⟩ : BufTy).Contents (Elt F)} (hx : x = x') (hy : y = y')
    (h : Shape.Concatenates [S1x2x16x2048x2048, S1x2x16x2048x2048] S2x2x16x2048x2048 0) :
    concatenate S2x2x16x2048x2048 0 [⟨S1x2x16x2048x2048, x⟩, ⟨S1x2x16x2048x2048, y⟩] h
      = concatenate S2x2x16x2048x2048 0 [⟨S1x2x16x2048x2048, x'⟩, ⟨S1x2x16x2048x2048, y'⟩] h := by
  subst hx; subst hy; rfl

/-! ## The line cut in three -/

/-- The linear layers, the feature maps and the two joins (24 operations). -/
def opsA : List (HloOp τ sig (Elt F)) :=
  [ binary main_arg0 main_arg1 main_v0 ((fun l r => Host.dotGeneral dot_S2x16x2048x64_S64x64_S2x16x2048x64_3_1_012_0_n_n none l r) : (⟨S2x16x2048x64, .f32⟩ : BufTy).Contents (Elt F) → (⟨S64x64, .f32⟩ : BufTy).Contents (Elt F) → (⟨S2x16x2048x64, .f32⟩ : BufTy).Contents (Elt F)),
    unary main_arg2 main_v1 (broadcastInDim S1x1x1x64 ![3] bcast_S64_S1x1x1x64_3 : (⟨S64, .f32⟩ : BufTy).Contents (Elt F) → (⟨S1x1x1x64, .f32⟩ : BufTy).Contents (Elt F)),
    unary main_v1 main_v2 (broadcastInDim S2x16x2048x64 ![0, 1, 2, 3] bcast_S1x1x1x64_S2x16x2048x64_0_1_2_3 : (⟨S1x1x1x64, .f32⟩ : BufTy).Contents (Elt F) → (⟨S2x16x2048x64, .f32⟩ : BufTy).Contents (Elt F)),
    binary main_v0 main_v2 main_v3 (addf : (⟨S2x16x2048x64, .f32⟩ : BufTy).Contents (Elt F) → (⟨S2x16x2048x64, .f32⟩ : BufTy).Contents (Elt F) → (⟨S2x16x2048x64, .f32⟩ : BufTy).Contents (Elt F)),
    binary main_arg0 main_arg3 main_v4 ((fun l r => Host.dotGeneral dot_S2x16x2048x64_S64x64_S2x16x2048x64_3_1_012_0_n_n none l r) : (⟨S2x16x2048x64, .f32⟩ : BufTy).Contents (Elt F) → (⟨S64x64, .f32⟩ : BufTy).Contents (Elt F) → (⟨S2x16x2048x64, .f32⟩ : BufTy).Contents (Elt F)),
    unary main_arg4 main_v5 (broadcastInDim S1x1x1x64 ![3] bcast_S64_S1x1x1x64_3 : (⟨S64, .f32⟩ : BufTy).Contents (Elt F) → (⟨S1x1x1x64, .f32⟩ : BufTy).Contents (Elt F)),
    unary main_v5 main_v6 (broadcastInDim S2x16x2048x64 ![0, 1, 2, 3] bcast_S1x1x1x64_S2x16x2048x64_0_1_2_3 : (⟨S1x1x1x64, .f32⟩ : BufTy).Contents (Elt F) → (⟨S2x16x2048x64, .f32⟩ : BufTy).Contents (Elt F)),
    binary main_v4 main_v6 main_v7 (addf : (⟨S2x16x2048x64, .f32⟩ : BufTy).Contents (Elt F) → (⟨S2x16x2048x64, .f32⟩ : BufTy).Contents (Elt F) → (⟨S2x16x2048x64, .f32⟩ : BufTy).Contents (Elt F)),
    binary main_v3 main_arg5 main_v8 ((fun l r => Host.dotGeneral dot_S2x16x2048x64_S64x64_S2x16x2048x64_3_1_012_0_n_n none l r) : (⟨S2x16x2048x64, .f32⟩ : BufTy).Contents (Elt F) → (⟨S64x64, .f32⟩ : BufTy).Contents (Elt F) → (⟨S2x16x2048x64, .f32⟩ : BufTy).Contents (Elt F)),
    unary main_arg6 main_v9 (broadcastInDim S1x1x1x64 ![3] bcast_S64_S1x1x1x64_3 : (⟨S64, .f32⟩ : BufTy).Contents (Elt F) → (⟨S1x1x1x64, .f32⟩ : BufTy).Contents (Elt F)),
    unary main_v9 main_v10 (broadcastInDim S2x16x2048x64 ![0, 1, 2, 3] bcast_S1x1x1x64_S2x16x2048x64_0_1_2_3 : (⟨S1x1x1x64, .f32⟩ : BufTy).Contents (Elt F) → (⟨S2x16x2048x64, .f32⟩ : BufTy).Contents (Elt F)),
    binary main_v8 main_v10 main_v11 (addf : (⟨S2x16x2048x64, .f32⟩ : BufTy).Contents (Elt F) → (⟨S2x16x2048x64, .f32⟩ : BufTy).Contents (Elt F) → (⟨S2x16x2048x64, .f32⟩ : BufTy).Contents (Elt F)),
    unary main_v11 main_v12 (Host.exp : (⟨S2x16x2048x64, .f32⟩ : BufTy).Contents (Elt F) → (⟨S2x16x2048x64, .f32⟩ : BufTy).Contents (Elt F)),
    unary main_v11 main_v13 (Host.negf : (⟨S2x16x2048x64, .f32⟩ : BufTy).Contents (Elt F) → (⟨S2x16x2048x64, .f32⟩ : BufTy).Contents (Elt F)),
    unary main_v13 main_v14 (Host.exp : (⟨S2x16x2048x64, .f32⟩ : BufTy).Contents (Elt F) → (⟨S2x16x2048x64, .f32⟩ : BufTy).Contents (Elt F)),
    binary main_v12 main_v14 main_v15 ((fun a b => concatenate S2x16x2048x128 3 [⟨S2x16x2048x64, a⟩, ⟨S2x16x2048x64, b⟩] concatenates_S2x16x2048x64_S2x16x2048x64_S2x16x2048x128_d3) : (⟨S2x16x2048x64, .f32⟩ : BufTy).Contents (Elt F) → (⟨S2x16x2048x64, .f32⟩ : BufTy).Contents (Elt F) → (⟨S2x16x2048x128, .f32⟩ : BufTy).Contents (Elt F)),
    binary main_v7 main_arg7 main_v16 ((fun l r => Host.dotGeneral dot_S2x16x2048x64_S64x64_S2x16x2048x64_3_1_012_0_n_n none l r) : (⟨S2x16x2048x64, .f32⟩ : BufTy).Contents (Elt F) → (⟨S64x64, .f32⟩ : BufTy).Contents (Elt F) → (⟨S2x16x2048x64, .f32⟩ : BufTy).Contents (Elt F)),
    unary main_arg8 main_v17 (broadcastInDim S1x1x1x64 ![3] bcast_S64_S1x1x1x64_3 : (⟨S64, .f32⟩ : BufTy).Contents (Elt F) → (⟨S1x1x1x64, .f32⟩ : BufTy).Contents (Elt F)),
    unary main_v17 main_v18 (broadcastInDim S2x16x2048x64 ![0, 1, 2, 3] bcast_S1x1x1x64_S2x16x2048x64_0_1_2_3 : (⟨S1x1x1x64, .f32⟩ : BufTy).Contents (Elt F) → (⟨S2x16x2048x64, .f32⟩ : BufTy).Contents (Elt F)),
    binary main_v16 main_v18 main_v19 (addf : (⟨S2x16x2048x64, .f32⟩ : BufTy).Contents (Elt F) → (⟨S2x16x2048x64, .f32⟩ : BufTy).Contents (Elt F) → (⟨S2x16x2048x64, .f32⟩ : BufTy).Contents (Elt F)),
    unary main_v19 main_v20 (Host.exp : (⟨S2x16x2048x64, .f32⟩ : BufTy).Contents (Elt F) → (⟨S2x16x2048x64, .f32⟩ : BufTy).Contents (Elt F)),
    unary main_v19 main_v21 (Host.negf : (⟨S2x16x2048x64, .f32⟩ : BufTy).Contents (Elt F) → (⟨S2x16x2048x64, .f32⟩ : BufTy).Contents (Elt F)),
    unary main_v21 main_v22 (Host.exp : (⟨S2x16x2048x64, .f32⟩ : BufTy).Contents (Elt F) → (⟨S2x16x2048x64, .f32⟩ : BufTy).Contents (Elt F)),
    binary main_v20 main_v22 main_v23 ((fun a b => concatenate S2x16x2048x128 3 [⟨S2x16x2048x64, a⟩, ⟨S2x16x2048x64, b⟩] concatenates_S2x16x2048x64_S2x16x2048x64_S2x16x2048x128_d3) : (⟨S2x16x2048x64, .f32⟩ : BufTy).Contents (Elt F) → (⟨S2x16x2048x64, .f32⟩ : BufTy).Contents (Elt F) → (⟨S2x16x2048x128, .f32⟩ : BufTy).Contents (Elt F)) ]

/-- From the feature product to the two attention arrays under a leading unit axis (27 operations). -/
def opsB : List (HloOp τ sig (Elt F)) :=
  [ binary main_v15 main_v23 main_v24 ((fun l r => Host.dotGeneral dot_S2x16x2048x128_S2x16x2048x128_S2x16x2048x2048_3_3_2_2_01_01 none l r) : (⟨S2x16x2048x128, .f32⟩ : BufTy).Contents (Elt F) → (⟨S2x16x2048x128, .f32⟩ : BufTy).Contents (Elt F) → (⟨S2x16x2048x2048, .f32⟩ : BufTy).Contents (Elt F)),
    nullary main_cst (constant S_ .f32 0x00000000#32),
    binary main_v24 main_cst main_v25 ((fun x v => Host.reduceAdd x v reducesTo_S2x16x2048x2048_S2x16x2048_d3 h_S_) : (⟨S2x16x2048x2048, .f32⟩ : BufTy).Contents (Elt F) → (⟨S_, .f32⟩ : BufTy).Contents (Elt F) → (⟨S2x16x2048, .f32⟩ : BufTy).Contents (Elt F)),
    unary main_v25 main_v26 (broadcastInDim S2x16x2048x1 ![0, 1, 2] bcast_S2x16x2048_S2x16x2048x1_0_1_2 : (⟨S2x16x2048, .f32⟩ : BufTy).Contents (Elt F) → (⟨S2x16x2048x1, .f32⟩ : BufTy).Contents (Elt F)),
    unary main_v26 main_v27 (broadcastInDim S2x16x2048x2048 ![0, 1, 2, 3] bcast_S2x16x2048x1_S2x16x2048x2048_0_1_2_3 : (⟨S2x16x2048x1, .f32⟩ : BufTy).Contents (Elt F) → (⟨S2x16x2048x2048, .f32⟩ : BufTy).Contents (Elt F)),
    binary main_v24 main_v27 main_v28 (Host.divf : (⟨S2x16x2048x2048, .f32⟩ : BufTy).Contents (Elt F) → (⟨S2x16x2048x2048, .f32⟩ : BufTy).Contents (Elt F) → (⟨S2x16x2048x2048, .f32⟩ : BufTy).Contents (Elt F)),
    binary main_v3 main_v7 main_v29 ((fun l r => Host.dotGeneral dot_S2x16x2048x64_S2x16x2048x64_S2x16x2048x2048_3_3_2_2_01_01 none l r) : (⟨S2x16x2048x64, .f32⟩ : BufTy).Contents (Elt F) → (⟨S2x16x2048x64, .f32⟩ : BufTy).Contents (Elt F) → (⟨S2x16x2048x2048, .f32⟩ : BufTy).Contents (Elt F)),
    nullary main_cst_0 (constant S_ .f32 0x42800000#32),
    unary main_cst_0 main_v30 (Host.sqrt : (⟨S_, .f32⟩ : BufTy).Contents (Elt F) → (⟨S_, .f32⟩ : BufTy).Contents (Elt F)),
    unary main_v30 main_v31 (broadcastInDim S2x16x2048x2048 ![] bcast_S_S2x16x2048x2048 : (⟨S_, .f32⟩ : BufTy).Contents (Elt F) → (⟨S2x16x2048x2048, .f32⟩ : BufTy).Contents (Elt F)),
    binary main_v29 main_v31 main_v32 (Host.divf : (⟨S2x16x2048x2048, .f32⟩ : BufTy).Contents (Elt F) → (⟨S2x16x2048x2048, .f32⟩ : BufTy).Contents (Elt F) → (⟨S2x16x2048x2048, .f32⟩ : BufTy).Contents (Elt F)),
    nullary main_cst_1 (constant S_ .f32 0xFF800000#32),
    binary main_v32 main_cst_1 main_v33 ((fun x v => Host.reduce FloatOps.maximumf x v reducesTo_S2x16x2048x2048_S2x16x2048_d3 h_S_) : (⟨S2x16x2048x2048, .f32⟩ : BufTy).Contents (Elt F) → (⟨S_, .f32⟩ : BufTy).Contents (Elt F) → (⟨S2x16x2048, .f32⟩ : BufTy).Contents (Elt F)),
    nullary main_cst_2 (constant S_ .f32 0xFF800000#32),
    unary main_cst_2 main_v34 (broadcastInDim S2x16x2048 ![] bcast_S_S2x16x2048 : (⟨S_, .f32⟩ : BufTy).Contents (Elt F) → (⟨S2x16x2048, .f32⟩ : BufTy).Contents (Elt F)),
    binary main_v34 main_v33 main_v35 (maximumf : (⟨S2x16x2048, .f32⟩ : BufTy).Contents (Elt F) → (⟨S2x16x2048, .f32⟩ : BufTy).Contents (Elt F) → (⟨S2x16x2048, .f32⟩ : BufTy).Contents (Elt F)),
    unary main_v35 main_v36 (broadcastInDim S2x16x2048x1 ![0, 1, 2] bcast_S2x16x2048_S2x16x2048x1_0_1_2 : (⟨S2x16x2048, .f32⟩ : BufTy).Contents (Elt F) → (⟨S2x16x2048x1, .f32⟩ : BufTy).Contents (Elt F)),
    unary main_v36 main_v37 (broadcastInDim S2x16x2048x2048 ![0, 1, 2, 3] bcast_S2x16x2048x1_S2x16x2048x2048_0_1_2_3 : (⟨S2x16x2048x1, .f32⟩ : BufTy).Contents (Elt F) → (⟨S2x16x2048x2048, .f32⟩ : BufTy).Contents (Elt F)),
    binary main_v32 main_v37 main_v38 (subf : (⟨S2x16x2048x2048, .f32⟩ : BufTy).Contents (Elt F) → (⟨S2x16x2048x2048, .f32⟩ : BufTy).Contents (Elt F) → (⟨S2x16x2048x2048, .f32⟩ : BufTy).Contents (Elt F)),
    unary main_v38 main_v39 (Host.exp : (⟨S2x16x2048x2048, .f32⟩ : BufTy).Contents (Elt F) → (⟨S2x16x2048x2048, .f32⟩ : BufTy).Contents (Elt F)),
    nullary main_cst_3 (constant S_ .f32 0x00000000#32),
    binary main_v39 main_cst_3 main_v40 ((fun x v => Host.reduceAdd x v reducesTo_S2x16x2048x2048_S2x16x2048_d3 h_S_) : (⟨S2x16x2048x2048, .f32⟩ : BufTy).Contents (Elt F) → (⟨S_, .f32⟩ : BufTy).Contents (Elt F) → (⟨S2x16x2048, .f32⟩ : BufTy).Contents (Elt F)),
    unary main_v40 main_v41 (broadcastInDim S2x16x2048x1 ![0, 1, 2] bcast_S2x16x2048_S2x16x2048x1_0_1_2 : (⟨S2x16x2048, .f32⟩ : BufTy).Contents (Elt F) → (⟨S2x16x2048x1, .f32⟩ : BufTy).Contents (Elt F)),
    unary main_v41 main_v42 (broadcastInDim S2x16x2048x2048 ![0, 1, 2, 3] bcast_S2x16x2048x1_S2x16x2048x2048_0_1_2_3 : (⟨S2x16x2048x1, .f32⟩ : BufTy).Contents (Elt F) → (⟨S2x16x2048x2048, .f32⟩ : BufTy).Contents (Elt F)),
    binary main_v39 main_v42 main_v43 (Host.divf : (⟨S2x16x2048x2048, .f32⟩ : BufTy).Contents (Elt F) → (⟨S2x16x2048x2048, .f32⟩ : BufTy).Contents (Elt F) → (⟨S2x16x2048x2048, .f32⟩ : BufTy).Contents (Elt F)),
    unary main_v28 main_v44 (broadcastInDim S1x2x16x2048x2048 ![1, 2, 3, 4] bcast_S2x16x2048x2048_S1x2x16x2048x2048_1_2_3_4 : (⟨S2x16x2048x2048, .f32⟩ : BufTy).Contents (Elt F) → (⟨S1x2x16x2048x2048, .f32⟩ : BufTy).Contents (Elt F)),
    unary main_v43 main_v45 (broadcastInDim S1x2x16x2048x2048 ![1, 2, 3, 4] bcast_S2x16x2048x2048_S1x2x16x2048x2048_1_2_3_4 : (⟨S2x16x2048x2048, .f32⟩ : BufTy).Contents (Elt F) → (⟨S1x2x16x2048x2048, .f32⟩ : BufTy).Contents (Elt F)) ]

/-- The final stack. -/
def opsC : List (HloOp τ sig (Elt F)) :=
  [ binary main_v44 main_v45 main_v46 ((fun a b => concatenate S2x2x16x2048x2048 0 [⟨S1x2x16x2048x2048, a⟩, ⟨S1x2x16x2048x2048, b⟩] concatenates_S1x2x16x2048x2048_S1x2x16x2048x2048_S2x2x16x2048x2048_d0) : (⟨S1x2x16x2048x2048, .f32⟩ : BufTy).Contents (Elt F) → (⟨S1x2x16x2048x2048, .f32⟩ : BufTy).Contents (Elt F) → (⟨S2x2x16x2048x2048, .f32⟩ : BufTy).Contents (Elt F)) ]

/-- The whole line is the three pieces in order. -/
theorem ops_split : (Cert.ReferenceIdeal.ValueP.ops : List (HloOp τ sig (Elt F))) = opsA ++ (opsB ++ opsC) := rfl

/-! ## After the first piece -/

section StageA
variable (V : Valuation τ sig (Elt F))

/-- The query rows. -/
theorem stageA_v3 : after (opsA (F := F)) V (Proc.devRef .tc main_v3)
    = val_main_v3 (F := F) (V (Proc.devRef .tc main_arg0)) (V (Proc.devRef .tc main_arg1)) (V (Proc.devRef .tc main_arg2)) := by
  unfold opsA
  after_results_simp
  rfl

/-- The key rows. -/
theorem stageA_v7 : after (opsA (F := F)) V (Proc.devRef .tc main_v7)
    = val_main_v7 (F := F) (V (Proc.devRef .tc main_arg0)) (V (Proc.devRef .tc main_arg3)) (V (Proc.devRef .tc main_arg4)) := by
  unfold opsA
  after_results_simp
  rfl

/-- The joined query features. -/
theorem stageA_v15 : after (opsA (F := F)) V (Proc.devRef .tc main_v15)
    = val_main_v15 (F := F) (V (Proc.devRef .tc main_arg0)) (V (Proc.devRef .tc main_arg1)) (V (Proc.devRef .tc main_arg2)) (V (Proc.devRef .tc main_arg5)) (V (Proc.devRef .tc main_arg6)) := by
  unfold opsA
  after_results_simp
  unfold val_main_v15
  refine cat128_congr ?_ ?_ _
  · after_results_simp
    rfl
  · after_results_simp
    rfl

/-- The joined key features. -/
theorem stageA_v23 : after (opsA (F := F)) V (Proc.devRef .tc main_v23)
    = val_main_v23 (F := F) (V (Proc.devRef .tc main_arg0)) (V (Proc.devRef .tc main_arg3)) (V (Proc.devRef .tc main_arg4)) (V (Proc.devRef .tc main_arg7)) (V (Proc.devRef .tc main_arg8)) := by
  unfold opsA
  after_results_simp
  unfold val_main_v23
  refine cat128_congr ?_ ?_ _
  · after_results_simp
    rfl
  · after_results_simp
    rfl

end StageA

/-! ## After the second piece, from contents holding the four values -/

section StageB
variable (V : Valuation τ sig (Elt F))
  (x0 : (⟨S2x16x2048x64, .f32⟩ : BufTy).Contents (Elt F)) (x1 : (⟨S64x64, .f32⟩ : BufTy).Contents (Elt F))
  (x2 : (⟨S64, .f32⟩ : BufTy).Contents (Elt F)) (x3 : (⟨S64x64, .f32⟩ : BufTy).Contents (Elt F))
  (x4 : (⟨S64, .f32⟩ : BufTy).Contents (Elt F)) (x5 : (⟨S64x64, .f32⟩ : BufTy).Contents (Elt F))
  (x6 : (⟨S64, .f32⟩ : BufTy).Contents (Elt F)) (x7 : (⟨S64x64, .f32⟩ : BufTy).Contents (Elt F))
  (x8 : (⟨S64, .f32⟩ : BufTy).Contents (Elt F))

/-- The predicted attention under a leading unit axis. -/
theorem stageB_v44 (h15 : V (Proc.devRef .tc main_v15) = val_main_v15 (F := F) x0 x1 x2 x5 x6)
    (h23 : V (Proc.devRef .tc main_v23) = val_main_v23 (F := F) x0 x3 x4 x7 x8) :
    after (opsB (F := F)) V (Proc.devRef .tc main_v44) = val_main_v44 (F := F) x0 x1 x2 x3 x4 x5 x6 x7 x8 := by
  unfold opsB
  after_results_simp
  rw [h15, h23]
  rfl

/-- The true attention under a leading unit axis. -/
theorem stageB_v45 (h3 : V (Proc.devRef .tc main_v3) = val_main_v3 (F := F) x0 x1 x2)
    (h7 : V (Proc.devRef .tc main_v7) = val_main_v7 (F := F) x0 x3 x4) :
    after (opsB (F := F)) V (Proc.devRef .tc main_v45) = val_main_v45 (F := F) x0 x1 x2 x3 x4 := by
  unfold opsB
  after_results_simp
  rw [h3, h7]
  rfl

end StageB

/-! ## The whole line -/

/-- The result buffer after the whole line, from arbitrary contents, is the composed value of the nine arguments' contents. -/
theorem result_eq (V : Valuation τ sig (Elt F)) :
    after (Cert.ReferenceIdeal.ValueP.ops : List (HloOp τ sig (Elt F))) V (Proc.devRef .tc main_v46)
      = val_main_v46 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  rw [ops_split, after_append, after_append]
  unfold opsC
  after_results_simp
  unfold val_main_v46
  exact cat2_congr
    (stageB_v44 (after opsA V) _ _ _ _ _ _ _ _ _ (stageA_v15 V) (stageA_v23 V))
    (stageB_v45 (after opsA V) _ _ _ _ _ (stageA_v3 V) (stageA_v7 V)) _

/-- The same from the launch contents of a memory: the arguments are the memory's buffers. -/
theorem result_eq_launch (m : (ℓ : Loc nD τ sig) → Buf (Elt F) ℓ) (c : Dev nD) :
    after (Cert.ReferenceIdeal.ValueP.ops : List (HloOp τ sig (Elt F))) (launchContents m c) (Proc.devRef .tc main_v46)
      = val_main_v46 (F := F) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
          (m ((c.tc : Thread nD τ).loc main_arg8)) :=
  result_eq (launchContents m c)

end Cert.ReferenceIdeal.RefValue

end
-- ==== Proof.lean ====
/-
  The two programs compute one function.

  The kernel takes x : f32[2,16,2048,64], four [64,64] weight matrices and four biases, and for each (batch, head) pair computes
  two [2048,2048] attention maps: the normalised product of "hedgehog" features (exp u, exp (−u)) of the query and key rows' learned
  projections, and the softmax of the scaled query–key scores.  It walks a 32 × 4 grid: at the first point of each (batch, head) pair it
  stores the key rows and the two key feature arrays (transposed) in scratch memory, and at each of the four points it computes a tile
  of 512 query rows against them.  The reference computes the same with whole-array operations.  Over the extended reals the two agree
  entry by entry, with no finiteness needed: the feature product over the 128 concatenated features is the sum of the two 64-term
  products, a transposed weight read at (k,e) is the weight at (e,k), 0 − u is −u, dividing by sqrt 64 is multiplying by 1/8, and both
  take the softmax the same way; every other difference is a tiling or a reshape.

  Both sides are proved equal to one specification (Spec.lean, `Hedgehog.G`): the kernel's result array in KernelValue.lean (from what each
  grid point leaves, PointValues.lean, and the body's arithmetic read at an index, PayRead.lean and TileValue.lean), the reference's in
  RefRead.lean and RefRun.lean.  The frames of the two kernels are the generated ones; the reference's frame is its run with the result
  dropped; the idealization rewrote nothing.
-/
import proofs.«163745_j81716047774352_2_alg».proof.Defs
import proofs.«163745_j81716047774352_2_alg».proof.Proof.Gen.Kernel
import proofs.«163745_j81716047774352_2_alg».proof.Proof.Gen.Kernel.Skeleton
import proofs.«163745_j81716047774352_2_alg».proof.Proof.Gen.Kernel.Launch
import proofs.«163745_j81716047774352_2_alg».proof.Proof.Gen.Kernel.Points
import proofs.«163745_j81716047774352_2_alg».proof.Proof.Gen.Kernel.Frame
import proofs.«163745_j81716047774352_2_alg».proof.Proof.Gen.KernelIdeal
import proofs.«163745_j81716047774352_2_alg».proof.Proof.Gen.KernelIdeal.Skeleton
import proofs.«163745_j81716047774352_2_alg».proof.Proof.Gen.KernelIdeal.Launch
import proofs.«163745_j81716047774352_2_alg».proof.Proof.Gen.KernelIdeal.Points
import proofs.«163745_j81716047774352_2_alg».proof.Proof.Gen.KernelIdeal.Frame
import proofs.«163745_j81716047774352_2_alg».proof.Proof.Gen.ReferenceIdeal
import proofs.«163745_j81716047774352_2_alg».proof.Proof.Gen.Pre_finite_inputs
import proofs.«163745_j81716047774352_2_alg».proof.Proof.KernelValue
import proofs.«163745_j81716047774352_2_alg».proof.Proof.RefRunP
import proofs.«163745_j81716047774352_2_alg».proof.Proof.RefReadP
import proofs.«163745_j81716047774352_2_alg».proof.Proof.RefRead
import proofs.«163745_j81716047774352_2_alg».proof.Proof.RefRun
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
/-- The reference's frame: its run, with the result forgotten. -/
theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- At the extended reals the kernel's result array ends at the specification of its arguments, and the reference's at the
    specification of its own, which agree with the kernel's. -/
theorem algebraic : Cert.algebraic_KernelIdeal_ReferenceIdeal := by
  intro m ρ m' ρ' _ hagree
  refine ⟨fun c => Hedgehog.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), Cert.KernelIdeal.KernelValue.run m ρ, ?_⟩
  refine (θ_run Cert.ReferenceIdeal.defs _ _).mono (fun _ h c => ⟨(h c).1.trans ?_, (h c).2⟩)
    (Cert.ReferenceIdeal.ValueP.run (F := Ideal) m' ρ')
  refine ((Cert.ReferenceIdeal.RefValue.result_eq_launch (F := Ideal) m' c).trans
    (Cert.ReferenceIdeal.RefValue.ref_eq _ _ _ _ _ _ _ _ _)).trans ?_
  obtain ⟨a0, a1, a2, a3, a4, a5, a6, a7, a8⟩ := hagree c
  rw [a0, a1, a2, a3, a4, a5, a6, a7, a8]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
